-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8192x2048 : Shape := ⟨2, ![8192, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8x2048x2048 .f32) (main_arg1 : FVec F S8192x2048 .f32) (main_arg2 : FVec F S8192x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Kernel.lean ====
abbrev S8x2048x2048 : Shape := ⟨3, ![8, 2048, 2048]⟩
abbrev S8192x2048 : Shape := ⟨2, ![8192, 2048]⟩
abbrev S2048x2048 : Shape := ⟨2, ![2048, 2048]⟩
abbrev S6144x2048 : Shape := ⟨2, ![6144, 2048]⟩
abbrev S2048x6144 : Shape := ⟨2, ![2048, 6144]⟩
abbrev S16384x2048 : Shape := ⟨2, ![16384, 2048]⟩
abbrev S128x2048 : Shape := ⟨2, ![128, 2048]⟩
abbrev S_ : Shape := ⟨0, ![]⟩
abbrev S128x6144 : Shape := ⟨2, ![128, 6144]⟩
abbrev S128 : Shape := ⟨1, ![128]⟩
abbrev S128x1 : Shape := ⟨2, ![128, 1]⟩

abbrev nBuf : Space → Nat
  | .hbm => 13
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S6144x2048, .f32⟩
  | .hbm, ⟨7, _⟩ => ⟨S2048x6144, .f32⟩
  | .hbm, ⟨8, _⟩ => ⟨S2048x6144, .bf16⟩
  | .hbm, ⟨9, _⟩ => ⟨S16384x2048, .f32⟩
  | .hbm, ⟨10, _⟩ => ⟨S16384x2048, .bf16⟩
  | .hbm, ⟨11, _⟩ => ⟨S16384x2048, .f32⟩
  | .hbm, ⟨12, _⟩ => ⟨S8x2048x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .f32⟩
  | .local _ .vmem, ⟨3, _⟩ => ⟨S128x2048, .f32⟩
  | .local _ .vmem, ⟨4, _⟩ => ⟨S2048x6144, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 64], ![false, false]⟩

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  slices_S8192x2048_S2048x2048_0_0 : S8192x2048.Slices ![0, 0] S2048x2048
  slices_S8192x2048_S2048x2048_4096_0 : S8192x2048.Slices ![4096, 0] S2048x2048
  slices_S8192x2048_S2048x2048_6144_0 : S8192x2048.Slices ![6144, 0] S2048x2048
  concatenates_S2048x2048_S2048x2048_S2048x2048_S6144x2048_d0 : Shape.Concatenates [S2048x2048, S2048x2048, S2048x2048] S6144x2048 0
  transposes_S6144x2048_S2048x6144_1_0 : S6144x2048.Transposes [1, 0] S2048x6144
  bitsLt_bf16_f32 : FTy.bits .bf16 < FTy.bits .f32
  shapeCasts_S8x2048x2048_S16384x2048 : S8x2048x2048.ShapeCasts S16384x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x6144_S2048x6144_0_0 : ∀ a, (![0, 0] : Fin 2 → Nat) a + S2048x6144.size a ≤ S2048x6144.size a
  h_S2048x6144 : 0 < S2048x6144.numel
  slices_S128x6144_o0_0_S128x2048 : S128x6144.Slices ![0, 0] S128x2048
  slices_S128x6144_o0_2048_S128x2048 : S128x6144.Slices ![0, 2048] S128x2048
  slices_S128x6144_o0_4096_S128x2048 : S128x6144.Slices ![0, 4096] S128x2048
  reduces_S128x2048_S128 : S128x2048.Reduces [1] S128
  shapeCasts_S128_S128x1 : S128.ShapeCasts S128x1
  broadcasts_S128x1_S128x2048 : S128x1.Broadcasts S128x2048
  shapeCasts_S16384x2048_S8x2048x2048 : S16384x2048.ShapeCasts S8x2048x2048
  dot_S128x2048_S2048x6144_S128x6144_1_0_0_1_n_n_wf : DotDims.WF S128x2048 S2048x6144 S128x6144 [1] [0] [0] [1] [] []
  hcc0_scratch1 : 4 + S_.numel ≤ 5
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S128x2048.size a ≤ S16384x2048.size a
  hwx0_0 : ∀ i : grid0.Coords, EltTy.bits .bf16 = 32 ∨ (Rect.block (s := S16384x2048) S128x2048.size (cc0_transform_1 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S128x2048.size a ≤ S16384x2048.size a
  hwx0_1 : ∀ i : grid0.Coords, EltTy.bits .f32 = 32 ∨ (Rect.block (s := S16384x2048) S128x2048.size (cc0_transform_2 i) (hinb0_1 i)).WholeWords (EltTy.packing .f32)

variable [Facts₀]

abbrev cc0_scratch1 : DmaSems sig S_ := SemArray.consecutive 4 S_ hcc0_scratch1
def dot_S128x2048_S2048x6144_S128x6144_1_0_0_1_n_n : DotDims S128x2048 S2048x6144 S128x6144 where
  lhsContracting := [1]
  rhsContracting := [0]
  lhsNonContracting := [0]
  rhsNonContracting := [1]
  lhsBatch := []
  rhsBatch := []
  wf := dot_S128x2048_S2048x6144_S128x6144_1_0_0_1_n_n_wf

abbrev win0_0 : Pipeline.Window sig grid0 :=
  Pipeline.Window.ofSpec (Memref.whole main_v7) S128x2048.size cc0_transform_1 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x2048.size cc0_transform_2 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S8192x2048 : Shape := ⟨2, ![8192, 2048]⟩
abbrev S8x2048x8192 : Shape := ⟨3, ![8, 2048, 8192]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8192x2048, .f32⟩
  | .hbm, ⟨2, _⟩ => ⟨S8192x2048, .f32⟩
  | .hbm, ⟨3, _⟩ => ⟨S8x2048x8192, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S_, .f32⟩
  | .hbm, ⟨34, _⟩ => ⟨S8x2048, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  slices_S8x2048x8192_S8x2048x2048_0_0_0 : S8x2048x8192.Slices ![0, 0, 0] S8x2048x2048
  slices_S8x2048x8192_S8x2048x2048_0_0_2048 : S8x2048x8192.Slices ![0, 0, 2048] S8x2048x2048
  slices_S8x2048x8192_S8x2048x2048_0_0_4096 : S8x2048x8192.Slices ![0, 0, 4096] S8x2048x2048
  slices_S8x2048x8192_S8x2048x2048_0_0_6144 : S8x2048x8192.Slices ![0, 0, 6144] S8x2048x2048
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x2048_S8192x2048_S8x2048x8192_2_1_01_0_n_n_wf : DotDims.WF S8x2048x2048 S8192x2048 S8x2048x8192 [2] [1] [0, 1] [0] [] []

variable [Facts₀]

def dot_S8x2048x2048_S8192x2048_S8x2048x8192_2_1_01_0_n_n : DotDims S8x2048x2048 S8192x2048 S8x2048x8192 where
  lhsContracting := [2]
  rhsContracting := [1]
  lhsNonContracting := [0, 1]
  rhsNonContracting := [0]
  lhsBatch := []
  rhsBatch := []
  wf := dot_S8x2048x2048_S8192x2048_S8x2048x8192_2_1_01_0_n_n_wf

class Facts : Prop extends Facts₀ where

variable [Facts]
-- ==== Proof.BitsSide.Around.lean ====
/-
  The program around its one region, for any float instance.

  @main is eight host lines (three row blocks of the weight sliced out, stacked, transposed and
  narrowed to the [2048, 6144] operand the kernel leaves in HBM; the activations flattened to
  [16384, 2048] and narrowed), the region over a 2 x 64 grid of 128-row blocks, and one host line
  reshaping the result. Here: the buffers' contents when the region is entered, @main reduced to
  the region continued by the last line, what that line may touch, that no host line writes an
  argument, and the kernel's own resources — the DMA semaphore it signals and waits on inside a
  point, the weight operand it copies itself, the scratch it copies it into — with the region
  invariant spelt conjunct by conjunct.
-/
import proofs.«124564_j8177617731970_1_alg».proof.Proof.Gen.Kernel.Launch
import proofs.«124564_j8177617731970_1_alg».proof.Proof.Gen.Kernel.Skeleton
import proofs.«124564_j8177617731970_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents the region finds -/

/-- Core `c`'s buffers when the region is entered, as a valuation: the launch contents after the eight host
    lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the reshape after it: it reduces to the region
    continued by that line, entered at `V`. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The operand the kernel copies itself -/

/-- The weight operand [2048, 6144], left in HBM: the one unscoped buffer the body moves by its own transfer. -/
def H0 : Finset (Ref sig .tc) := {main_v5}
theorem H0_sub : H0 ⊆ Pipeline.restRefs sig spec0 := by decide

/-- The line after the region reads the result array and writes the reshaped result: it touches no buffer the body
    moves itself. -/
theorem tail_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.unary_bufs, StableHlo.reshape_bufs, Finset.mem_insert, Finset.mem_singleton, not_or] <;> and_intros <;> exact StableHlo.devRef_ne_of_ne (by decide)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.unary_writes, StableHlo.reshape_writes, Finset.mem_singleton] <;> exact StableHlo.devRef_ne_of_ne (by decide)

/-! ## No host line writes an argument -/

/-- A buffer none of the eight lines before the region writes is found as launched. -/
theorem V_of_unwritten (c : Dev nD) (b : Ref sig .tc)
    (hb : ∀ r ∈ [main_v0, main_v1, main_v2, main_v3, main_v4, main_v5, main_v6, main_v7], b ≠ r) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    simp only [List.mem_cons, List.mem_nil_iff, or_false, forall_eq_or_imp, forall_eq] at hb
    obtain ⟨h0, h1, h2, h3, h4, h5, h6, h7⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

theorem V_main_arg0 (c : Dev nD) : V m c main_arg0 = m ((c : Thread nD τ).loc main_arg0) := V_of_unwritten m c _ (by decide)
theorem V_main_arg1 (c : Dev nD) : V m c main_arg1 = m ((c : Thread nD τ).loc main_arg1) := V_of_unwritten m c _ (by decide)
theorem V_main_arg2 (c : Dev nD) : V m c main_arg2 = m ((c : Thread nD τ).loc main_arg2) := V_of_unwritten m c _ (by decide)

/-- A buffer that is no array of the pipeline and that the reshape after the region does not write ends as the region
    found it. -/
theorem tail_of_unwritten {U' : Type} [URA U'] (dats : (p : Fin 1) → (c : Dev nD) → Dat τ (Elt F) Unit ℕ U' ℕ (cfgs p) c) (c : Dev nD)
    (b : Ref sig .tc) (hb : b ≠ main_v9) (ha : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b ha]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's 128 rows at every point (the window is fetched at each), for
    any proof data over the region-entry arrays whose body leaves the block in place. -/
theorem before_in_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch of the body -/

/-- The body's one branch: the second grid coordinate (the row block's number within its half) is zero. -/
abbrev firstOfHalf (i : grid0.Coords) : Prop := (Scalar.cmpi .ne (Scalar.extui (Scalar.cmpi .eq (BitVec.ofNat 32 (i 1).val) 0#32)) 0#32) = 1#1
/-- It holds at the points 0 and 64 — decided over the grid. -/
theorem firstOfHalf_iff : ∀ t : Fin cfg0.N, firstOfHalf (grid0.coords t) ↔ t.val % 64 = 0 :=
  (by decide +kernel : ∀ t : Fin grid0.N, firstOfHalf (grid0.coords t) ↔ t.val % 64 = 0)

/-- Neither window is ever idle. -/
theorem live_in : ∀ t : Fin cfg0.N, cfg0.idle 0 (grid0.coords t) = false := by decide +kernel
theorem live_out : ∀ t : Fin cfg0.N, cfg0.idle 1 (grid0.coords t) = false := by decide +kernel

/-! ## The memrefs the body is called with, and its own resources -/

/-- One staging buffer of the output window, through which its contents are stated. -/
abbrev VOut : View sig .tc .vmem S128x2048 .f32 := (Memref.whole cc0_stg1_0 : Memref sig .tc .vmem S128x2048 .f32).view
/-- Each window's current staging memref at point `t`, as the pipeline passes it, and its wholeness. -/
abbrev msIn (t : Fin cfg0.N) : Memref sig .tc .vmem S128x2048 .bf16 := win0_0.stage (cfg0.slots t 0)
abbrev hsIn (t : Fin cfg0.N) : (msIn t).IsWhole := hstage0_0 ((cfg0.slots t 0).cast nbuf0_0)
abbrev msOut (t : Fin cfg0.N) : Memref sig .tc .vmem S128x2048 .f32 := win0_1.stage (cfg0.slots t 1)
abbrev hsOut (t : Fin cfg0.N) : (msOut t).IsWhole := hstage0_1 ((cfg0.slots t 1).cast nbuf0_1)
/-- The scratch the weight is copied into, whole. -/
abbrev scW : Memref sig .tc .vmem S2048x6144 .bf16 := Memref.whole cc0_scratch0
/-- The weight operand in HBM, whole. -/
abbrev hbW : Memref sig .tc .hbm S2048x6144 .bf16 := Memref.whole main_v5
/-- A memref's buffer on core `c`, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own DMA semaphore (cell 4 of the pool): none of the windows'. -/
abbrev osem0 : Fin 1 → SemLoc sig := fun j => (![SemLoc.dma 4] : Fin 1 → SemLoc sig) j
theorem ownSemFacts0 : Pipeline.OwnSemFacts spec0 osem0 := by decide
/-- The cell at zero. -/
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0) := by
  rw [Pipeline.ownSems0_eq_of_list c osem0 [0] (by decide) (by decide)]; rfl
/-- The weight operand's points-to at the region-entry contents. -/
theorem hbmPts_eq (c : Dev nD) :
    (bigSep H0 (fun b => ((c : Thread nD τ).loc b) ↦{fullShare} V m c b) : sProp 𝕄) = iprop(hbPt c hbW (V m c main_v5)) := by
  rw [BI.bigSep_eq_bigSepL_of_eq [main_v5] (by decide) (by decide)]; rfl

/-- The launch's invariant conjunct by conjunct: the scratch at some contents, the generator register at some state,
    the own cell at zero, the weight operand at its region-entry contents. -/
theorem PhiD_eq (c : Dev nD) :
    (Pipeline.ΦD osem0 spec0 H0 (V m) c : sProp 𝕄)
      = iprop(iprop((∃ d, owns (c : Thread nD τ) scW fullShare d)) ∗ (∃ r, prngReg c r) ∗ iprop(semVal ((c : Thread nD τ), SemLoc.dma 4) 0) ∗ iprop(hbPt c hbW (V m c main_v5))) := by
  rw [Pipeline.ΦD_eq, scopedRest0_eq, ownSems_eq, hbmPts_eq]; simp only [scW, owns_whole]; try rfl

end Cert.Kernel.Frame

end
-- ==== Proof.BitsSide.Runs.lean ====
/-
  The kernel body run once, in each of its two cases, on any whole staging memrefs, for any float instance.

  The body's value is one pure function of two arrays: the point's 128 rows of activations and the
  [2048, 6144] weight it finds in its scratch. At the first point of each half of the grid it first
  copies the weight operand from HBM into the scratch (one transfer on its own semaphore, waited for
  at once); at every other point the scratch still holds that copy. In both cases the body stores the
  payload of the activations and the copied weight over the whole output block and leaves the scratch
  holding the copy.
-/
import proofs.«124564_j8177617731970_1_alg».proof.Proof.BitsSide.Around
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Whole-buffer loads, stores and copies read back -/

theorem zeros2 : (![0, 0] : Fin 2 → Nat) = fun _ => 0 := by funext a; fin_cases a <;> rfl

section ReadBack
variable {sg : RefSig} {κ : Kind} {sp : Space} {S : Shape} {e : EltTy} {Val : EltTy → Type} [∀ e, Nonempty (Val e)]

/-- One store over a buffer's whole shape leaves its payload, whatever was there. -/
theorem read_stored_whole (v : View sg κ sp S e) (f : v.ty.Contents Val) {off : Fin S.rank → Nat} (h : off = fun _ => 0)
    (inb : ∀ a, off a + S.size a ≤ S.size a) (P : S.Idx → Val e) :
    v.read Val (v.writes Val f [⟨Rect.unit off S.size inb, P⟩]) = P := by
  rw [View.read_writes_eq_canon _ _ _ (fun y => ⟨_, List.mem_singleton_self _, View.mem_set_unit_zero h inb y⟩),
    View.canon_unit_zero h]

/-- A load of a buffer's whole shape reads what the buffer's view reads. -/
theorem load_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [show v.readAt Val (Rect.unit off S.size inb).toLoadRect f = View.ld (v.read Val f) (Rect.unit off S.size inb) from rfl,
    View.ld_unit_zero h]

/-- A transfer delivered over a buffer's whole shape leaves what it moved, whatever was there; -/
theorem read_delivered_whole (v : View sg κ sp S e) (f : v.ty.Contents Val) (P : S.Idx → Val e) :
    v.read Val (v.writes Val f [⟨Rect.whole S, P⟩]) = P :=
  read_stored_whole v f rfl _ P

/-- and a load of the whole shape after it reads what it moved. -/
theorem load_delivered_whole (v : View sg κ sp S e) {off : Fin S.rank → Nat} (h : off = fun _ => 0)
    (inb : ∀ a, off a + S.size a ≤ S.size a) (P : S.Idx → Val e) :
    v.readCov [⟨Rect.whole S, P⟩] (Rect.unit off S.size inb).toLoadRect = P := by
  rw [View.readCov_eq_canon_ld _ _ _ (fun y => ⟨_, List.mem_singleton_self _, by
    show y ∈ (Rect.whole S).set; rw [Rect.set_whole]; exact Finset.mem_univ y⟩), View.ld_unit_zero h]
  exact View.canon_unit_zero (off := fun _ => 0) rfl _ P

end ReadBack

/-! ## The copied weight -/

/-- What the scratch holds once the weight operand has been copied in: the operand's contents as its own view
    reads them, element for element. -/
def copied (c : Dev nD) (fh0 : HbBuf (F := F) c hbW) : Vec F S2048x6144 .bf16 := hbW.view.read (Elt F) fh0

/-! ## The first point of a half: copy, then compute -/

set_option maxHeartbeats 1000000 in
/-- At a point whose second coordinate is zero, from the activations' block `x0`, any output buffer, any scratch, the
    own cell at zero and the weight operand held at `fh0`: the body copies the operand into the scratch, waits, and
    ends with the output block at the payload of `x0` and the copy, the scratch at the copy, the cell back at zero
    and the operand as it was. -/
theorem runCopy (c : Dev nD) (i : grid0.Coords) (arg3 : Memref sig .tc .vmem S128x2048 .bf16) (harg3 : arg3.IsWhole) (arg4 : Memref sig .tc .vmem S128x2048 .f32) (harg4 : arg4.IsWhole) (arg5 : Memref sig .tc .vmem S2048x6144 .bf16) (harg5 : arg5.IsWhole) (hc : firstOfHalf i)
    (x0 : Vec F S128x2048 .bf16) (fh0 : HbBuf (F := F) c hbW) (W : Waits sig Unit) (K : PUnit → sProp 𝕄) :
        iprop(owns (c : Thread nD τ) arg3 fullShare x0 ∗ (∃ d, owns (c : Thread nD τ) arg4 fullShare d) ∗ (∃ d, owns (c : Thread nD τ) arg5 fullShare d) ∗ semVal ((c : Thread nD τ), SemLoc.dma 4) 0 ∗ hbPt c hbW fh0 ∗ owes (c : Thread nD τ) 0 W
            ∗ (iprop(owns (c : Thread nD τ) arg3 fullShare x0 ∗ owns (c : Thread nD τ) arg4 fullShare (k0_pay1 x0 (copied c fh0)) ∗ owns (c : Thread nD τ) arg5 fullShare (copied c fh0) ∗ semVal ((c : Thread nD τ), SemLoc.dma 4) 0 ∗ hbPt c hbW fh0 ∗ (∃ W', owes (c : Thread nD τ) 0 W')) -∗ K ⟨⟩))
          ⊢ wp frame (wpE (defs₀ (F := F)) Variants.none c none) Set.univ (cc0__kernel i (Memref.whole main_v5) (Memref.isWhole_whole _) arg3 harg3 arg4 harg4 arg5 harg5 cc0_scratch1) K := by
  simp only [cc0__kernel_eq_skeleton]; unfold cc0__kernel_skel
  unfold owns
  iintro ⟨⟨%f0, %hf0, H0⟩, ⟨%d1, %f1, -, H1⟩, ⟨%ds0, %fs0, -, HS0⟩, Hq0, Hh0, HW, Hk⟩
  obtain rfl := harg3.eq_unread hf0
  sl_exec (disch := exact hc)
  sl_step
  iapply Hk
  isplitl [H0]
  · iexists _; isplitr; · ipureintro; exact harg3.read_unread _
    iexact H0
  isplitl [H1]
  · iexists _; isplitr; swap; · iexact H1
    ipureintro
    sl_unfold_run_names
    rw [read_stored_whole _ _ zeros2, load_whole _ _ zeros2, hf0, load_delivered_whole _ zeros2]
    rfl
  isplitl [HS0]
  · iexists _; isplitr; swap; · iexact HS0
    ipureintro
    sl_unfold_run_names
    rw [read_delivered_whole]
    rfl
  isplitl [Hq0]; · iexact Hq0
  isplitl [Hh0]; · iexact Hh0
  iexists _; iexact HW

/-! ## Every other point: the scratch still holds the copy -/

set_option maxHeartbeats 1000000 in
/-- At a point whose second coordinate is not zero, from the activations' block `x0`, any output buffer and the scratch
    at `xs0`: the body ends with the output block at the payload of `x0` and `xs0`, the scratch untouched. -/
theorem runKeep (c : Dev nD) (i : grid0.Coords) (arg3 : Memref sig .tc .vmem S128x2048 .bf16) (harg3 : arg3.IsWhole) (arg4 : Memref sig .tc .vmem S128x2048 .f32) (harg4 : arg4.IsWhole) (arg5 : Memref sig .tc .vmem S2048x6144 .bf16) (harg5 : arg5.IsWhole) (hc : ¬firstOfHalf i)
    (x0 : Vec F S128x2048 .bf16) (xs0 : Vec F S2048x6144 .bf16) (E : Set ℕ) (K : PUnit → sProp 𝕄) :
        iprop(owns (c : Thread nD τ) arg3 fullShare x0 ∗ (∃ d, owns (c : Thread nD τ) arg4 fullShare d) ∗ owns (c : Thread nD τ) arg5 fullShare xs0
            ∗ (iprop(owns (c : Thread nD τ) arg3 fullShare x0 ∗ owns (c : Thread nD τ) arg4 fullShare (k0_pay1 x0 xs0) ∗ owns (c : Thread nD τ) arg5 fullShare xs0) -∗ K ⟨⟩))
          ⊢ wp frame (wpE (defs₀ (F := F)) Variants.none c none) E (cc0__kernel i (Memref.whole main_v5) (Memref.isWhole_whole _) arg3 harg3 arg4 harg4 arg5 harg5 cc0_scratch1) K := by
  simp only [cc0__kernel_eq_skeleton]; unfold cc0__kernel_skel
  unfold owns
  iintro ⟨⟨%f0, %hf0, H0⟩, ⟨%d1, %f1, -, H1⟩, ⟨%fs0, %hfs0, HS0⟩, Hk⟩
  obtain rfl := harg3.eq_unread hf0; obtain rfl := harg5.eq_unread hfs0
  sl_exec (disch := exact hc)
  sl_step
  iapply Hk
  isplitl [H0]
  · iexists _; isplitr; · ipureintro; exact harg3.read_unread _
    iexact H0
  isplitl [H1]
  · iexists _; isplitr; swap; · iexact H1
    ipureintro
    sl_unfold_run_names
    rw [read_stored_whole _ _ zeros2, load_whole _ _ zeros2, load_whole _ _ zeros2, hf0, hfs0]
  · iexists _; isplitr; · ipureintro; exact harg5.read_unread _
    iexact HS0

end Cert.Kernel.Frame

end
-- ==== Proof.BitsSide.Frame.lean ====
/-
  The frame of the program, for any float instance: every weakly fair execution of @main terminates
  without a fault, the argument arrays end unchanged, the result array of the region holds, block
  by block, the body's payload of the block's 128 rows of activations and the weight operand, and
  the reshaped result is the last host line's image of it.

  The region invariant TRACKS the scratch: before the first point it holds anything; after any
  point it holds the copy of the weight operand (the first point of each half puts it there, every
  other point leaves it), which is what the points that do not copy compute from. The own DMA
  semaphore is at zero between points, and the weight operand is held at its region-entry contents
  throughout.
-/
import proofs.«124564_j8177617731970_1_alg».proof.Proof.BitsSide.Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each point computes -/

/-- The copy of the weight operand as the region finds it: what the scratch holds after any point. -/
def weightCopy (c : Dev nD) : Vec F S2048x6144 .bf16 := copied c (V m c main_v5)

/-- What the output's staging buffer holds after the body at point `t`: the payload of the point's rows of
    activations and the weight's copy. -/
def outAt (c : Dev nD) (t : Fin cfg0.N) : Vec F S128x2048 .f32 := k0_pay1 (iblk m c 0 t) (weightCopy m c)

/-! ## The invariant, position by position -/

/-- Before position `n`: at the start the launch's invariant (the scratch at anything); afterwards the scratch at the
    weight's copy, the generator register at some state, the own cell at zero, the weight operand as the region found
    it. -/
def PhiS (c : Dev nD) : ℕ → sProp 𝕄
  | 0 => Pipeline.ΦD osem0 spec0 H0 (V m) c
  | _ + 1 => iprop(owns (c : Thread nD τ) scW fullShare (weightCopy m c) ∗ (∃ r, prngReg c r) ∗ semVal ((c : Thread nD τ), SemLoc.dma 4) 0 ∗ hbPt c hbW (V m c main_v5))

theorem PhiS_zero (c : Dev nD) (n : ℕ) (hz : n = 0) : PhiS m c n = Pipeline.ΦD osem0 spec0 H0 (V m) c := by
  subst hz; rfl
theorem PhiS_succ (c : Dev nD) (n : ℕ) :
    PhiS m c (n + 1) = iprop(owns (c : Thread nD τ) scW fullShare (weightCopy m c) ∗ (∃ r, prngReg c r) ∗ semVal ((c : Thread nD τ), SemLoc.dma 4) 0 ∗ hbPt c hbW (V m c main_v5)) := rfl
theorem PhiS_pos (c : Dev nD) (n : ℕ) (hz : n ≠ 0) :
    PhiS m c n = iprop(owns (c : Thread nD τ) scW fullShare (weightCopy m c) ∗ (∃ r, prngReg c r) ∗ semVal ((c : Thread nD τ), SemLoc.dma 4) 0 ∗ hbPt c hbW (V m c main_v5)) := by
  cases n with
  | zero => exact absurd rfl hz
  | succ n => rfl

/-! ## The proof data -/

/-- The pipeline's proof data on core `c`: the arrays as the region finds them; after the body at point `t` the
    activations' buffer at its block and the output's at `outAt`; the invariant `PhiS`; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ t := PhiS m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]
theorem after_in (c : Dev nD) (t : Fin cfg0.N) : (dats m 0 c).after 0 t = iblk m c 0 t := by dsimp only [dats]
theorem after_out (c : Dev nD) (t : Fin cfg0.N) : (dats m 0 c).after 1 t = outAt m c t := by dsimp only [dats]

/-- The activations' staging buffer holds the point's block at every point. -/
theorem before_in (c : Dev nD) (t : Fin cfg0.N) (d) : (dats m 0 c).before 0 t d = iblk m c 0 t :=
  before_in_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (msIn t) fullShare ((dats m 0 c).after 0 t)
    ∗ owns (c : Thread nD τ) (msOut t) fullShare ((dats m 0 c).after 1 t))

set_option maxHeartbeats 1600000 in
/-- The body at any point. At a point that copies (the position a multiple of 64) the invariant hands the body its
    scratch at whatever it holds (anything at position 0, the earlier copy at position 64), its cell at zero and the
    weight operand, and takes the scratch back at the copy; at any other point the scratch holds the copy already and
    comes back untouched. Either way the output's buffer ends at the payload of the point's rows and the copy. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [after_in, after_out, Phi_castSucc, Phi_succ, PhiS_succ]
  unfold Dat.owesAt Pipeline.owesWithin
  rw [show (dats m 0 c).owed t.castSucc = 0 from rfl, show (dats m 0 c).owed t.succ = 0 from rfl]
  unfold outAt weightCopy
  by_cases h0 : t.val % 64 = 0
  · have hc : firstOfHalf (grid0.coords t) := (firstOfHalf_iff t).mpr h0
    by_cases hz : t.val = 0
    · rw [PhiS_zero m c _ hz, PhiD_eq]
      iintro ⟨⟨HS0, Hg, Hq0, Hh0⟩, ⟨%W, -, HW⟩, ⟨%d0, H0⟩, ⟨%d1, H1⟩⟩
      iapply (runCopy c (grid0.coords t) _ _ _ _ _ _ hc (iblk m c 0 t) (V m c main_v5) W _)
      isplitl [H0]; · iexact H0
      isplitl [H1]; · iexists _; iexact H1
      isplitl [HS0]; · iexact HS0
      isplitl [Hq0]; · iexact Hq0
      isplitl [Hh0]; · iexact Hh0
      isplitl [HW]; · iexact HW
      iintro ⟨H0, H1, HS0, Hq0, Hh0, ⟨%W', HW'⟩⟩
      isplitl [HS0 Hg Hq0 Hh0]
      · isplitl [HS0]; · iexact HS0
        isplitl [Hg]; · iexact Hg
        isplitl [Hq0]; · iexact Hq0
        iexact Hh0
      isplitl [HW']
      · iexists W'; isplitr; · ipureintro; exact fun _ _ => Or.inl trivial
        iexact HW'
      isplitl [H0]; · iexact H0
      iexact H1
    · rw [PhiS_pos m c _ hz]
      iintro ⟨⟨HS0, Hg, Hq0, Hh0⟩, ⟨%W, -, HW⟩, ⟨%d0, H0⟩, ⟨%d1, H1⟩⟩
      iapply (runCopy c (grid0.coords t) _ _ _ _ _ _ hc (iblk m c 0 t) (V m c main_v5) W _)
      isplitl [H0]; · iexact H0
      isplitl [H1]; · iexists _; iexact H1
      isplitl [HS0]; · iexists _; iexact HS0
      isplitl [Hq0]; · iexact Hq0
      isplitl [Hh0]; · iexact Hh0
      isplitl [HW]; · iexact HW
      iintro ⟨H0, H1, HS0, Hq0, Hh0, ⟨%W', HW'⟩⟩
      isplitl [HS0 Hg Hq0 Hh0]
      · isplitl [HS0]; · iexact HS0
        isplitl [Hg]; · iexact Hg
        isplitl [Hq0]; · iexact Hq0
        iexact Hh0
      isplitl [HW']
      · iexists W'; isplitr; · ipureintro; exact fun _ _ => Or.inl trivial
        iexact HW'
      isplitl [H0]; · iexact H0
      iexact H1
  · have hc : ¬firstOfHalf (grid0.coords t) := fun h => h0 ((firstOfHalf_iff t).mp h)
    have hz : t.val ≠ 0 := fun h => h0 (by rw [h])
    rw [PhiS_pos m c _ hz]
    iintro ⟨⟨HS0, Hg, Hq0, Hh0⟩, ⟨%W, -, HW⟩, ⟨%d0, H0⟩, ⟨%d1, H1⟩⟩
    iapply (runKeep c (grid0.coords t) _ _ _ _ _ _ hc (iblk m c 0 t) (copied c (V m c main_v5)) Set.univ _)
    isplitl [H0]; · iexact H0
    isplitl [H1]; · iexists _; iexact H1
    isplitl [HS0]; · iexact HS0
    iintro ⟨H0, H1, HS0⟩
    isplitl [HS0 Hg Hq0 Hh0]
    · isplitl [HS0]; · iexact HS0
      isplitl [Hg]; · iexact Hg
      isplitl [Hq0]; · iexact Hq0
      iexact Hh0
    isplitl [HW]
    · iexists W; isplitr; · ipureintro; exact fun _ _ => Or.inl trivial
      iexact HW
    isplitl [H0]; · iexact H0
    iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦD osem0 spec0 H0 (V m) c ⊢ (dats m 0 c).Φ 0 := by
  rw [show (dats m 0 c).Φ 0 = PhiS m c 0 from rfl, PhiS_zero m c 0 rfl]
  try exact Idealize.SL.BI.Entails.refl _

/-- After the last point the invariant gives the launch's back: the scratch's contents are forgotten. -/
theorem hout (c : Dev nD) : (dats m 0 c).Φ (Fin.last cfg0.N) ⊢ Pipeline.ΦD osem0 spec0 H0 (V m) c := by
  rw [show (dats m 0 c).Φ (Fin.last cfg0.N) = PhiS m c cfg0.N from rfl,
    PhiS_pos m c _ (by have : cfg0.N = 128 := N_0; omega), PhiD_eq]
  iintro ⟨HS0, Hg, Hq0, Hh0⟩
  isplitl [HS0]; · iexists _; iexact HS0
  isplitl [Hg]; · iexact Hg
  isplitl [Hq0]; · iexact Hq0
  iexact Hh0

/-! ## The run and the frame -/

set_option backward.isDefEq.respectTransparency.types false in
/-- From any memory with zero counters every weakly fair execution of @main terminates, and in every final state each
    array of the pipeline holds what the library computes from the proof data and every other unscoped buffer what
    the reshape after the region leaves in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_but) (hfresh := tail_fresh) (hkeep := tail_keeps)
    (hmain := hmain m Variants.none) (hA := A_eq m) (hin := hin m) (hout := hout m)

/-- An argument array is no array of the pipeline, and no host line writes it: it ends as launched. -/
theorem kept (c : Dev nD) (b : Ref sig .tc) (h9 : b ≠ main_v9) (ha : ∀ w, Pipeline.arrRef spec0 w ≠ b)
    (hb : ∀ r ∈ [main_v0, main_v1, main_v2, main_v3, main_v4, main_v5, main_v6, main_v7], b ≠ r) :
    Pipeline.afterTail₀ cfgs (dats m) 0 (V0 m) [hostOps1] c b = m ((c : Thread nD τ).loc b) :=
  (tail_of_unwritten m (dats m) c b h9 ha).trans (V_of_unwritten m c b hb)

/-- THE FRAME: every weakly fair execution of @main terminates without a fault and the three argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (kept m c main_arg0 (by decide) (by decide) (by decide)),
     ((h c).2 main_arg1 (Pipeline.mem_restRefs_of main_arg1 (by decide) (by decide))).trans (kept m c main_arg1 (by decide) (by decide) (by decide)),
     ((h c).2 main_arg2 (Pipeline.mem_restRefs_of main_arg2 (by decide) (by decide))).trans (kept m c main_arg2 (by decide) (by decide) (by decide))⟩)
    (run_main m ρ)

end Cert.Kernel.Frame

end
-- ==== Proof.IdealSide.Around.lean ====
/-
  The program around its one region, for any float instance.

  @main is eight host lines (three row blocks of the weight sliced out, stacked, transposed and
  narrowed to the [2048, 6144] operand the kernel leaves in HBM; the activations flattened to
  [16384, 2048] and narrowed), the region over a 2 x 64 grid of 128-row blocks, and one host line
  reshaping the result. Here: the buffers' contents when the region is entered, @main reduced to
  the region continued by the last line, what that line may touch, that no host line writes an
  argument, and the kernel's own resources — the DMA semaphore it signals and waits on inside a
  point, the weight operand it copies itself, the scratch it copies it into — with the region
  invariant spelt conjunct by conjunct.
-/
import proofs.«124564_j8177617731970_1_alg».proof.Proof.Gen.KernelIdeal.Launch
import proofs.«124564_j8177617731970_1_alg».proof.Proof.Gen.KernelIdeal.Skeleton
import proofs.«124564_j8177617731970_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents the region finds -/

/-- Core `c`'s buffers when the region is entered, as a valuation: the launch contents after the eight host
    lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the reshape after it: it reduces to the region
    continued by that line, entered at `V`. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The operand the kernel copies itself -/

/-- The weight operand [2048, 6144], left in HBM: the one unscoped buffer the body moves by its own transfer. -/
def H0 : Finset (Ref sig .tc) := {main_v5}
theorem H0_sub : H0 ⊆ Pipeline.restRefs sig spec0 := by decide

/-- The line after the region reads the result array and writes the reshaped result: it touches no buffer the body
    moves itself. -/
theorem tail_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.unary_bufs, StableHlo.reshape_bufs, Finset.mem_insert, Finset.mem_singleton, not_or] <;> and_intros <;> exact StableHlo.devRef_ne_of_ne (by decide)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.unary_writes, StableHlo.reshape_writes, Finset.mem_singleton] <;> exact StableHlo.devRef_ne_of_ne (by decide)

/-! ## No host line writes an argument -/

/-- A buffer none of the eight lines before the region writes is found as launched. -/
theorem V_of_unwritten (c : Dev nD) (b : Ref sig .tc)
    (hb : ∀ r ∈ [main_v0, main_v1, main_v2, main_v3, main_v4, main_v5, main_v6, main_v7], b ≠ r) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    simp only [List.mem_cons, List.mem_nil_iff, or_false, forall_eq_or_imp, forall_eq] at hb
    obtain ⟨h0, h1, h2, h3, h4, h5, h6, h7⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

theorem V_main_arg0 (c : Dev nD) : V m c main_arg0 = m ((c : Thread nD τ).loc main_arg0) := V_of_unwritten m c _ (by decide)
theorem V_main_arg1 (c : Dev nD) : V m c main_arg1 = m ((c : Thread nD τ).loc main_arg1) := V_of_unwritten m c _ (by decide)
theorem V_main_arg2 (c : Dev nD) : V m c main_arg2 = m ((c : Thread nD τ).loc main_arg2) := V_of_unwritten m c _ (by decide)

/-- A buffer that is no array of the pipeline and that the reshape after the region does not write ends as the region
    found it. -/
theorem tail_of_unwritten {U' : Type} [URA U'] (dats : (p : Fin 1) → (c : Dev nD) → Dat τ (Elt F) Unit ℕ U' ℕ (cfgs p) c) (c : Dev nD)
    (b : Ref sig .tc) (hb : b ≠ main_v9) (ha : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b ha]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's 128 rows at every point (the window is fetched at each), for
    any proof data over the region-entry arrays whose body leaves the block in place. -/
theorem before_in_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch of the body -/

/-- The body's one branch: the second grid coordinate (the row block's number within its half) is zero. -/
abbrev firstOfHalf (i : grid0.Coords) : Prop := (Scalar.cmpi .ne (Scalar.extui (Scalar.cmpi .eq (BitVec.ofNat 32 (i 1).val) 0#32)) 0#32) = 1#1
/-- It holds at the points 0 and 64 — decided over the grid. -/
theorem firstOfHalf_iff : ∀ t : Fin cfg0.N, firstOfHalf (grid0.coords t) ↔ t.val % 64 = 0 :=
  (by decide +kernel : ∀ t : Fin grid0.N, firstOfHalf (grid0.coords t) ↔ t.val % 64 = 0)

/-- Neither window is ever idle. -/
theorem live_in : ∀ t : Fin cfg0.N, cfg0.idle 0 (grid0.coords t) = false := by decide +kernel
theorem live_out : ∀ t : Fin cfg0.N, cfg0.idle 1 (grid0.coords t) = false := by decide +kernel

/-! ## The memrefs the body is called with, and its own resources -/

/-- One staging buffer of the output window, through which its contents are stated. -/
abbrev VOut : View sig .tc .vmem S128x2048 .f32 := (Memref.whole cc0_stg1_0 : Memref sig .tc .vmem S128x2048 .f32).view
/-- Each window's current staging memref at point `t`, as the pipeline passes it, and its wholeness. -/
abbrev msIn (t : Fin cfg0.N) : Memref sig .tc .vmem S128x2048 .bf16 := win0_0.stage (cfg0.slots t 0)
abbrev hsIn (t : Fin cfg0.N) : (msIn t).IsWhole := hstage0_0 ((cfg0.slots t 0).cast nbuf0_0)
abbrev msOut (t : Fin cfg0.N) : Memref sig .tc .vmem S128x2048 .f32 := win0_1.stage (cfg0.slots t 1)
abbrev hsOut (t : Fin cfg0.N) : (msOut t).IsWhole := hstage0_1 ((cfg0.slots t 1).cast nbuf0_1)
/-- The scratch the weight is copied into, whole. -/
abbrev scW : Memref sig .tc .vmem S2048x6144 .bf16 := Memref.whole cc0_scratch0
/-- The weight operand in HBM, whole. -/
abbrev hbW : Memref sig .tc .hbm S2048x6144 .bf16 := Memref.whole main_v5
/-- A memref's buffer on core `c`, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own DMA semaphore (cell 4 of the pool): none of the windows'. -/
abbrev osem0 : Fin 1 → SemLoc sig := fun j => (![SemLoc.dma 4] : Fin 1 → SemLoc sig) j
theorem ownSemFacts0 : Pipeline.OwnSemFacts spec0 osem0 := by decide
/-- The cell at zero. -/
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0) := by
  rw [Pipeline.ownSems0_eq_of_list c osem0 [0] (by decide) (by decide)]; rfl
/-- The weight operand's points-to at the region-entry contents. -/
theorem hbmPts_eq (c : Dev nD) :
    (bigSep H0 (fun b => ((c : Thread nD τ).loc b) ↦{fullShare} V m c b) : sProp 𝕄) = iprop(hbPt c hbW (V m c main_v5)) := by
  rw [BI.bigSep_eq_bigSepL_of_eq [main_v5] (by decide) (by decide)]; rfl

/-- The launch's invariant conjunct by conjunct: the scratch at some contents, the generator register at some state,
    the own cell at zero, the weight operand at its region-entry contents. -/
theorem PhiD_eq (c : Dev nD) :
    (Pipeline.ΦD osem0 spec0 H0 (V m) c : sProp 𝕄)
      = iprop(iprop((∃ d, owns (c : Thread nD τ) scW fullShare d)) ∗ (∃ r, prngReg c r) ∗ iprop(semVal ((c : Thread nD τ), SemLoc.dma 4) 0) ∗ iprop(hbPt c hbW (V m c main_v5))) := by
  rw [Pipeline.ΦD_eq, scopedRest0_eq, ownSems_eq, hbmPts_eq]; simp only [scW, owns_whole]; try rfl

end Cert.KernelIdeal.Frame

end
-- ==== Proof.IdealSide.Runs.lean ====
/-
  The kernel body run once, in each of its two cases, on any whole staging memrefs, for any float instance.

  The body's value is one pure function of two arrays: the point's 128 rows of activations and the
  [2048, 6144] weight it finds in its scratch. At the first point of each half of the grid it first
  copies the weight operand from HBM into the scratch (one transfer on its own semaphore, waited for
  at once); at every other point the scratch still holds that copy. In both cases the body stores the
  payload of the activations and the copied weight over the whole output block and leaves the scratch
  holding the copy.
-/
import proofs.«124564_j8177617731970_1_alg».proof.Proof.IdealSide.Around
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Whole-buffer loads, stores and copies read back -/

theorem zeros2 : (![0, 0] : Fin 2 → Nat) = fun _ => 0 := by funext a; fin_cases a <;> rfl

section ReadBack
variable {sg : RefSig} {κ : Kind} {sp : Space} {S : Shape} {e : EltTy} {Val : EltTy → Type} [∀ e, Nonempty (Val e)]

/-- One store over a buffer's whole shape leaves its payload, whatever was there. -/
theorem read_stored_whole (v : View sg κ sp S e) (f : v.ty.Contents Val) {off : Fin S.rank → Nat} (h : off = fun _ => 0)
    (inb : ∀ a, off a + S.size a ≤ S.size a) (P : S.Idx → Val e) :
    v.read Val (v.writes Val f [⟨Rect.unit off S.size inb, P⟩]) = P := by
  rw [View.read_writes_eq_canon _ _ _ (fun y => ⟨_, List.mem_singleton_self _, View.mem_set_unit_zero h inb y⟩),
    View.canon_unit_zero h]

/-- A load of a buffer's whole shape reads what the buffer's view reads. -/
theorem load_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [show v.readAt Val (Rect.unit off S.size inb).toLoadRect f = View.ld (v.read Val f) (Rect.unit off S.size inb) from rfl,
    View.ld_unit_zero h]

/-- A transfer delivered over a buffer's whole shape leaves what it moved, whatever was there; -/
theorem read_delivered_whole (v : View sg κ sp S e) (f : v.ty.Contents Val) (P : S.Idx → Val e) :
    v.read Val (v.writes Val f [⟨Rect.whole S, P⟩]) = P :=
  read_stored_whole v f rfl _ P

/-- and a load of the whole shape after it reads what it moved. -/
theorem load_delivered_whole (v : View sg κ sp S e) {off : Fin S.rank → Nat} (h : off = fun _ => 0)
    (inb : ∀ a, off a + S.size a ≤ S.size a) (P : S.Idx → Val e) :
    v.readCov [⟨Rect.whole S, P⟩] (Rect.unit off S.size inb).toLoadRect = P := by
  rw [View.readCov_eq_canon_ld _ _ _ (fun y => ⟨_, List.mem_singleton_self _, by
    show y ∈ (Rect.whole S).set; rw [Rect.set_whole]; exact Finset.mem_univ y⟩), View.ld_unit_zero h]
  exact View.canon_unit_zero (off := fun _ => 0) rfl _ P

end ReadBack

/-! ## The copied weight -/

/-- What the scratch holds once the weight operand has been copied in: the operand's contents as its own view
    reads them, element for element. -/
def copied (c : Dev nD) (fh0 : HbBuf (F := F) c hbW) : Vec F S2048x6144 .bf16 := hbW.view.read (Elt F) fh0

/-! ## The first point of a half: copy, then compute -/

set_option maxHeartbeats 1000000 in
/-- At a point whose second coordinate is zero, from the activations' block `x0`, any output buffer, any scratch, the
    own cell at zero and the weight operand held at `fh0`: the body copies the operand into the scratch, waits, and
    ends with the output block at the payload of `x0` and the copy, the scratch at the copy, the cell back at zero
    and the operand as it was. -/
theorem runCopy (c : Dev nD) (i : grid0.Coords) (arg3 : Memref sig .tc .vmem S128x2048 .bf16) (harg3 : arg3.IsWhole) (arg4 : Memref sig .tc .vmem S128x2048 .f32) (harg4 : arg4.IsWhole) (arg5 : Memref sig .tc .vmem S2048x6144 .bf16) (harg5 : arg5.IsWhole) (hc : firstOfHalf i)
    (x0 : Vec F S128x2048 .bf16) (fh0 : HbBuf (F := F) c hbW) (W : Waits sig Unit) (K : PUnit → sProp 𝕄) :
        iprop(owns (c : Thread nD τ) arg3 fullShare x0 ∗ (∃ d, owns (c : Thread nD τ) arg4 fullShare d) ∗ (∃ d, owns (c : Thread nD τ) arg5 fullShare d) ∗ semVal ((c : Thread nD τ), SemLoc.dma 4) 0 ∗ hbPt c hbW fh0 ∗ owes (c : Thread nD τ) 0 W
            ∗ (iprop(owns (c : Thread nD τ) arg3 fullShare x0 ∗ owns (c : Thread nD τ) arg4 fullShare (k0_pay1 x0 (copied c fh0)) ∗ owns (c : Thread nD τ) arg5 fullShare (copied c fh0) ∗ semVal ((c : Thread nD τ), SemLoc.dma 4) 0 ∗ hbPt c hbW fh0 ∗ (∃ W', owes (c : Thread nD τ) 0 W')) -∗ K ⟨⟩))
          ⊢ wp frame (wpE (defs₀ (F := F)) Variants.none c none) Set.univ (cc0__kernel i (Memref.whole main_v5) (Memref.isWhole_whole _) arg3 harg3 arg4 harg4 arg5 harg5 cc0_scratch1) K := by
  simp only [cc0__kernel_eq_skeleton]; unfold cc0__kernel_skel
  unfold owns
  iintro ⟨⟨%f0, %hf0, H0⟩, ⟨%d1, %f1, -, H1⟩, ⟨%ds0, %fs0, -, HS0⟩, Hq0, Hh0, HW, Hk⟩
  obtain rfl := harg3.eq_unread hf0
  sl_exec (disch := exact hc)
  sl_step
  iapply Hk
  isplitl [H0]
  · iexists _; isplitr; · ipureintro; exact harg3.read_unread _
    iexact H0
  isplitl [H1]
  · iexists _; isplitr; swap; · iexact H1
    ipureintro
    sl_unfold_run_names
    rw [read_stored_whole _ _ zeros2, load_whole _ _ zeros2, hf0, load_delivered_whole _ zeros2]
    rfl
  isplitl [HS0]
  · iexists _; isplitr; swap; · iexact HS0
    ipureintro
    sl_unfold_run_names
    rw [read_delivered_whole]
    rfl
  isplitl [Hq0]; · iexact Hq0
  isplitl [Hh0]; · iexact Hh0
  iexists _; iexact HW

/-! ## Every other point: the scratch still holds the copy -/

set_option maxHeartbeats 1000000 in
/-- At a point whose second coordinate is not zero, from the activations' block `x0`, any output buffer and the scratch
    at `xs0`: the body ends with the output block at the payload of `x0` and `xs0`, the scratch untouched. -/
theorem runKeep (c : Dev nD) (i : grid0.Coords) (arg3 : Memref sig .tc .vmem S128x2048 .bf16) (harg3 : arg3.IsWhole) (arg4 : Memref sig .tc .vmem S128x2048 .f32) (harg4 : arg4.IsWhole) (arg5 : Memref sig .tc .vmem S2048x6144 .bf16) (harg5 : arg5.IsWhole) (hc : ¬firstOfHalf i)
    (x0 : Vec F S128x2048 .bf16) (xs0 : Vec F S2048x6144 .bf16) (E : Set ℕ) (K : PUnit → sProp 𝕄) :
        iprop(owns (c : Thread nD τ) arg3 fullShare x0 ∗ (∃ d, owns (c : Thread nD τ) arg4 fullShare d) ∗ owns (c : Thread nD τ) arg5 fullShare xs0
            ∗ (iprop(owns (c : Thread nD τ) arg3 fullShare x0 ∗ owns (c : Thread nD τ) arg4 fullShare (k0_pay1 x0 xs0) ∗ owns (c : Thread nD τ) arg5 fullShare xs0) -∗ K ⟨⟩))
          ⊢ wp frame (wpE (defs₀ (F := F)) Variants.none c none) E (cc0__kernel i (Memref.whole main_v5) (Memref.isWhole_whole _) arg3 harg3 arg4 harg4 arg5 harg5 cc0_scratch1) K := by
  simp only [cc0__kernel_eq_skeleton]; unfold cc0__kernel_skel
  unfold owns
  iintro ⟨⟨%f0, %hf0, H0⟩, ⟨%d1, %f1, -, H1⟩, ⟨%fs0, %hfs0, HS0⟩, Hk⟩
  obtain rfl := harg3.eq_unread hf0; obtain rfl := harg5.eq_unread hfs0
  sl_exec (disch := exact hc)
  sl_step
  iapply Hk
  isplitl [H0]
  · iexists _; isplitr; · ipureintro; exact harg3.read_unread _
    iexact H0
  isplitl [H1]
  · iexists _; isplitr; swap; · iexact H1
    ipureintro
    sl_unfold_run_names
    rw [read_stored_whole _ _ zeros2, load_whole _ _ zeros2, load_whole _ _ zeros2, hf0, hfs0]
  · iexists _; isplitr; · ipureintro; exact harg5.read_unread _
    iexact HS0

end Cert.KernelIdeal.Frame

end
-- ==== Proof.IdealSide.Frame.lean ====
/-
  The frame of the program, for any float instance: every weakly fair execution of @main terminates
  without a fault, the argument arrays end unchanged, the result array of the region holds, block
  by block, the body's payload of the block's 128 rows of activations and the weight operand, and
  the reshaped result is the last host line's image of it.

  The region invariant TRACKS the scratch: before the first point it holds anything; after any
  point it holds the copy of the weight operand (the first point of each half puts it there, every
  other point leaves it), which is what the points that do not copy compute from. The own DMA
  semaphore is at zero between points, and the weight operand is held at its region-entry contents
  throughout.
-/
import proofs.«124564_j8177617731970_1_alg».proof.Proof.IdealSide.Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each point computes -/

/-- The copy of the weight operand as the region finds it: what the scratch holds after any point. -/
def weightCopy (c : Dev nD) : Vec F S2048x6144 .bf16 := copied c (V m c main_v5)

/-- What the output's staging buffer holds after the body at point `t`: the payload of the point's rows of
    activations and the weight's copy. -/
def outAt (c : Dev nD) (t : Fin cfg0.N) : Vec F S128x2048 .f32 := k0_pay1 (iblk m c 0 t) (weightCopy m c)

/-! ## The invariant, position by position -/

/-- Before position `n`: at the start the launch's invariant (the scratch at anything); afterwards the scratch at the
    weight's copy, the generator register at some state, the own cell at zero, the weight operand as the region found
    it. -/
def PhiS (c : Dev nD) : ℕ → sProp 𝕄
  | 0 => Pipeline.ΦD osem0 spec0 H0 (V m) c
  | _ + 1 => iprop(owns (c : Thread nD τ) scW fullShare (weightCopy m c) ∗ (∃ r, prngReg c r) ∗ semVal ((c : Thread nD τ), SemLoc.dma 4) 0 ∗ hbPt c hbW (V m c main_v5))

theorem PhiS_zero (c : Dev nD) (n : ℕ) (hz : n = 0) : PhiS m c n = Pipeline.ΦD osem0 spec0 H0 (V m) c := by
  subst hz; rfl
theorem PhiS_succ (c : Dev nD) (n : ℕ) :
    PhiS m c (n + 1) = iprop(owns (c : Thread nD τ) scW fullShare (weightCopy m c) ∗ (∃ r, prngReg c r) ∗ semVal ((c : Thread nD τ), SemLoc.dma 4) 0 ∗ hbPt c hbW (V m c main_v5)) := rfl
theorem PhiS_pos (c : Dev nD) (n : ℕ) (hz : n ≠ 0) :
    PhiS m c n = iprop(owns (c : Thread nD τ) scW fullShare (weightCopy m c) ∗ (∃ r, prngReg c r) ∗ semVal ((c : Thread nD τ), SemLoc.dma 4) 0 ∗ hbPt c hbW (V m c main_v5)) := by
  cases n with
  | zero => exact absurd rfl hz
  | succ n => rfl

/-! ## The proof data -/

/-- The pipeline's proof data on core `c`: the arrays as the region finds them; after the body at point `t` the
    activations' buffer at its block and the output's at `outAt`; the invariant `PhiS`; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ t := PhiS m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]
theorem after_in (c : Dev nD) (t : Fin cfg0.N) : (dats m 0 c).after 0 t = iblk m c 0 t := by dsimp only [dats]
theorem after_out (c : Dev nD) (t : Fin cfg0.N) : (dats m 0 c).after 1 t = outAt m c t := by dsimp only [dats]

/-- The activations' staging buffer holds the point's block at every point. -/
theorem before_in (c : Dev nD) (t : Fin cfg0.N) (d) : (dats m 0 c).before 0 t d = iblk m c 0 t :=
  before_in_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (msIn t) fullShare ((dats m 0 c).after 0 t)
    ∗ owns (c : Thread nD τ) (msOut t) fullShare ((dats m 0 c).after 1 t))

set_option maxHeartbeats 1600000 in
/-- The body at any point. At a point that copies (the position a multiple of 64) the invariant hands the body its
    scratch at whatever it holds (anything at position 0, the earlier copy at position 64), its cell at zero and the
    weight operand, and takes the scratch back at the copy; at any other point the scratch holds the copy already and
    comes back untouched. Either way the output's buffer ends at the payload of the point's rows and the copy. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [after_in, after_out, Phi_castSucc, Phi_succ, PhiS_succ]
  unfold Dat.owesAt Pipeline.owesWithin
  rw [show (dats m 0 c).owed t.castSucc = 0 from rfl, show (dats m 0 c).owed t.succ = 0 from rfl]
  unfold outAt weightCopy
  by_cases h0 : t.val % 64 = 0
  · have hc : firstOfHalf (grid0.coords t) := (firstOfHalf_iff t).mpr h0
    by_cases hz : t.val = 0
    · rw [PhiS_zero m c _ hz, PhiD_eq]
      iintro ⟨⟨HS0, Hg, Hq0, Hh0⟩, ⟨%W, -, HW⟩, ⟨%d0, H0⟩, ⟨%d1, H1⟩⟩
      iapply (runCopy c (grid0.coords t) _ _ _ _ _ _ hc (iblk m c 0 t) (V m c main_v5) W _)
      isplitl [H0]; · iexact H0
      isplitl [H1]; · iexists _; iexact H1
      isplitl [HS0]; · iexact HS0
      isplitl [Hq0]; · iexact Hq0
      isplitl [Hh0]; · iexact Hh0
      isplitl [HW]; · iexact HW
      iintro ⟨H0, H1, HS0, Hq0, Hh0, ⟨%W', HW'⟩⟩
      isplitl [HS0 Hg Hq0 Hh0]
      · isplitl [HS0]; · iexact HS0
        isplitl [Hg]; · iexact Hg
        isplitl [Hq0]; · iexact Hq0
        iexact Hh0
      isplitl [HW']
      · iexists W'; isplitr; · ipureintro; exact fun _ _ => Or.inl trivial
        iexact HW'
      isplitl [H0]; · iexact H0
      iexact H1
    · rw [PhiS_pos m c _ hz]
      iintro ⟨⟨HS0, Hg, Hq0, Hh0⟩, ⟨%W, -, HW⟩, ⟨%d0, H0⟩, ⟨%d1, H1⟩⟩
      iapply (runCopy c (grid0.coords t) _ _ _ _ _ _ hc (iblk m c 0 t) (V m c main_v5) W _)
      isplitl [H0]; · iexact H0
      isplitl [H1]; · iexists _; iexact H1
      isplitl [HS0]; · iexists _; iexact HS0
      isplitl [Hq0]; · iexact Hq0
      isplitl [Hh0]; · iexact Hh0
      isplitl [HW]; · iexact HW
      iintro ⟨H0, H1, HS0, Hq0, Hh0, ⟨%W', HW'⟩⟩
      isplitl [HS0 Hg Hq0 Hh0]
      · isplitl [HS0]; · iexact HS0
        isplitl [Hg]; · iexact Hg
        isplitl [Hq0]; · iexact Hq0
        iexact Hh0
      isplitl [HW']
      · iexists W'; isplitr; · ipureintro; exact fun _ _ => Or.inl trivial
        iexact HW'
      isplitl [H0]; · iexact H0
      iexact H1
  · have hc : ¬firstOfHalf (grid0.coords t) := fun h => h0 ((firstOfHalf_iff t).mp h)
    have hz : t.val ≠ 0 := fun h => h0 (by rw [h])
    rw [PhiS_pos m c _ hz]
    iintro ⟨⟨HS0, Hg, Hq0, Hh0⟩, ⟨%W, -, HW⟩, ⟨%d0, H0⟩, ⟨%d1, H1⟩⟩
    iapply (runKeep c (grid0.coords t) _ _ _ _ _ _ hc (iblk m c 0 t) (copied c (V m c main_v5)) Set.univ _)
    isplitl [H0]; · iexact H0
    isplitl [H1]; · iexists _; iexact H1
    isplitl [HS0]; · iexact HS0
    iintro ⟨H0, H1, HS0⟩
    isplitl [HS0 Hg Hq0 Hh0]
    · isplitl [HS0]; · iexact HS0
      isplitl [Hg]; · iexact Hg
      isplitl [Hq0]; · iexact Hq0
      iexact Hh0
    isplitl [HW]
    · iexists W; isplitr; · ipureintro; exact fun _ _ => Or.inl trivial
      iexact HW
    isplitl [H0]; · iexact H0
    iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦD osem0 spec0 H0 (V m) c ⊢ (dats m 0 c).Φ 0 := by
  rw [show (dats m 0 c).Φ 0 = PhiS m c 0 from rfl, PhiS_zero m c 0 rfl]
  try exact Idealize.SL.BI.Entails.refl _

/-- After the last point the invariant gives the launch's back: the scratch's contents are forgotten. -/
theorem hout (c : Dev nD) : (dats m 0 c).Φ (Fin.last cfg0.N) ⊢ Pipeline.ΦD osem0 spec0 H0 (V m) c := by
  rw [show (dats m 0 c).Φ (Fin.last cfg0.N) = PhiS m c cfg0.N from rfl,
    PhiS_pos m c _ (by have : cfg0.N = 128 := N_0; omega), PhiD_eq]
  iintro ⟨HS0, Hg, Hq0, Hh0⟩
  isplitl [HS0]; · iexists _; iexact HS0
  isplitl [Hg]; · iexact Hg
  isplitl [Hq0]; · iexact Hq0
  iexact Hh0

/-! ## The run and the frame -/

set_option backward.isDefEq.respectTransparency.types false in
/-- From any memory with zero counters every weakly fair execution of @main terminates, and in every final state each
    array of the pipeline holds what the library computes from the proof data and every other unscoped buffer what
    the reshape after the region leaves in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_but) (hfresh := tail_fresh) (hkeep := tail_keeps)
    (hmain := hmain m Variants.none) (hA := A_eq m) (hin := hin m) (hout := hout m)

/-- An argument array is no array of the pipeline, and no host line writes it: it ends as launched. -/
theorem kept (c : Dev nD) (b : Ref sig .tc) (h9 : b ≠ main_v9) (ha : ∀ w, Pipeline.arrRef spec0 w ≠ b)
    (hb : ∀ r ∈ [main_v0, main_v1, main_v2, main_v3, main_v4, main_v5, main_v6, main_v7], b ≠ r) :
    Pipeline.afterTail₀ cfgs (dats m) 0 (V0 m) [hostOps1] c b = m ((c : Thread nD τ).loc b) :=
  (tail_of_unwritten m (dats m) c b h9 ha).trans (V_of_unwritten m c b hb)

/-- THE FRAME: every weakly fair execution of @main terminates without a fault and the three argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (kept m c main_arg0 (by decide) (by decide) (by decide)),
     ((h c).2 main_arg1 (Pipeline.mem_restRefs_of main_arg1 (by decide) (by decide))).trans (kept m c main_arg1 (by decide) (by decide) (by decide)),
     ((h c).2 main_arg2 (Pipeline.mem_restRefs_of main_arg2 (by decide) (by decide))).trans (kept m c main_arg2 (by decide) (by decide) (by decide))⟩)
    (run_main m ρ)

end Cert.KernelIdeal.Frame

end
-- ==== Proof.Spec.lean ====
/-
  The function both programs compute, on the extended reals.

  For activations x [8, 2048, 2048] and input weights w [8192, 2048] (four stacked 2048-row blocks: input,
  forget, cell and output gate), the LSTM cell is entered with zero state at every step, so the forget block and
  the recurrent weights never contribute. Row (b, t) of the result is the softmax over j of

      20 · σ(o_j) · tanh(σ(i_j) · tanh(g_j)),   i_j = ⟨x[b,t,:], w[j,:]⟩,  g_j = ⟨x[b,t,:], w[4096 + j,:]⟩,
                                                  o_j = ⟨x[b,t,:], w[6144 + j,:]⟩,

  the softmax taken as the programs spell it: the row maximum (folded from −∞, and once more against −∞)
  subtracted, exponentials, and the quotient by their sum. Stated over one row at a time; the float literals stay
  the words the programs print.
-/
import Idealize.ShloMosaic.PureOps.Ideal.Laws
import Idealize.ShloMosaic.Lib.ValueIdx

noncomputable section

namespace Cert.Lstm

open Idealize.ShloMosaic Idealize.ShloMosaic.ValueIdx

/-- The word of 1.0 denotes 1. -/
theorem one_word : Ideal.ofBits .f32 0x3F800000#32 = 1 := by
  simp [Ideal.ofBits, Ideal.ieee, -EReal.coe_mul]; norm_num

/-- The sharpness 20.0 and −∞, as both programs print them. -/
abbrev sharp : EReal := Ideal.ofBits .f32 0x41A00000#32
abbrev negInf : EReal := Ideal.ofBits .f32 0xFF800000#32

/-- The scaled hidden state from the three gate pre-activations (the cell state before it is `σ(i) · tanh(g)`). -/
def logit (gi gg go : EReal) : EReal :=
  sharp * (Ideal.logistic go * Ideal.tanh (Ideal.logistic gi * Ideal.tanh gg))

/-- The maximum a row's softmax subtracts. -/
def rowMax {n : ℕ} (z : Fin n → EReal) : EReal := max negInf ((Finset.univ : Finset (Fin n)).fold max negInf z)

/-- One row's softmax at `j`. -/
def softmaxRow {n : ℕ} (z : Fin n → EReal) (j : Fin n) : EReal :=
  Ideal.div (Ideal.exp (z j - rowMax z)) (∑ k : Fin n, Ideal.exp (z k - rowMax z))

/-- A pre-activation: one row of activations against one row of weights. -/
def dotRow (xr wr : Fin 2048 → EReal) : EReal := ∑ k : Fin 2048, xr k * wr k

/-- Row `g` of the input weights. -/
def wRow (w : (⟨2, ![8192, 2048]⟩ : Shape).Idx → EReal) (g : Fin 8192) : Fin 2048 → EReal := fun k => w (ix2 g k)

/-- Row `off + j` of the input weights, for a gate block starting at row `off`. -/
def gateRow (w : (⟨2, ![8192, 2048]⟩ : Shape).Idx → EReal) (off : ℕ) (hoff : off + 2048 ≤ 8192) (j : Fin 2048) : Fin 2048 → EReal :=
  wRow w ⟨off + j.val, by have := j.isLt; omega⟩

/-- The logits of one row of activations `xr`. -/
def rowLogits (w : (⟨2, ![8192, 2048]⟩ : Shape).Idx → EReal) (xr : Fin 2048 → EReal) (j : Fin 2048) : EReal :=
  logit (dotRow xr (gateRow w 0 (by omega) j)) (dotRow xr (gateRow w 4096 (by omega) j)) (dotRow xr (gateRow w 6144 (by omega) j))

/-- THE RESULT: entry (b, t, j). -/
def probs (x : (⟨3, ![8, 2048, 2048]⟩ : Shape).Idx → EReal) (w : (⟨2, ![8192, 2048]⟩ : Shape).Idx → EReal) :
    (⟨3, ![8, 2048, 2048]⟩ : Shape).Idx → EReal :=
  fun i => softmaxRow (rowLogits w fun k => x (ix3 (i 0) (i 1) k)) (i 2)

theorem probs_apply (x : (⟨3, ![8, 2048, 2048]⟩ : Shape).Idx → EReal) (w : (⟨2, ![8192, 2048]⟩ : Shape).Idx → EReal)
    (b : Fin 8) (t j : Fin 2048) :
    probs x w (ix3 b t j) = softmaxRow (rowLogits w fun k => x (ix3 b t k)) j := rfl

end Cert.Lstm

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.BlockValue.lean ====
/-
  What the kernel body computes, entry by entry, at the exact values.

  The body's one payload takes the point's 128 rows of activations X [128, 2048] and the weight W [2048, 6144]
  (three 2048-column blocks: input, cell and output gate). Its matrix product into zeros, read at (p, n), is the
  sum over k of X (p, k) · W (k, n); the three column slices are the three gates' pre-activations; the gating is
  pointwise; and the softmax's two row reductions, kept as columns and spread back over the row, read the row p
  alone. So entry (p, j) is one row's softmax, at j, of the logits built from row p of X against columns j,
  2048 + j and 4096 + j of W.
-/
import proofs.«124564_j8177617731970_1_alg».proof.Proof.Gen.KernelIdeal.Skeleton
import proofs.«124564_j8177617731970_1_alg».proof.Proof.Spec
import proofs.«124564_j8177617731970_1_alg».proof.Proof.LibKeepdims
import proofs.«124564_j8177617731970_1_alg».proof.Proof.LibContractPlain
import proofs.«124564_j8177617731970_1_alg».proof.Proof.LibBlockLayout
import Idealize.ShloMosaic.Lib.Pipeline.Value

noncomputable section

namespace Cert.KernelIdeal.Block

open Cert.KernelIdeal Cert.KernelIdeal.Gen Cert.Lstm
open Idealize.ShloMosaic Idealize.ShloMosaic.ValueIdx

/-! ## The payload, stage by stage -/

/-- The block's product into zeros: all three gates' pre-activations side by side. -/
def gates (x0 : FVec Ideal S128x2048 .bf16) (W : FVec Ideal S2048x6144 .bf16) : FVec Ideal S128x6144 .f32 :=
  matmul dot_S128x2048_S2048x6144_S128x6144_1_0_0_1_n_n none (shapeCast S128x2048 x0 shapeCasts_S128x2048_S128x2048) W
    (constant (F := Ideal) S128x6144 .f32 0x00000000#32)

/-- The block's scaled hidden states: the three column slices of the product, the gating, the factor 20. -/
def scaled (x0 : FVec Ideal S128x2048 .bf16) (W : FVec Ideal S2048x6144 .bf16) : FVec Ideal S128x2048 .f32 :=
  mulf (broadcast S128x2048 (Scalar.ofBits (F := Ideal) .f32 0x41A00000#32))
    (mulf (logistic (extractStridedSlice S128x2048 ![0, 4096] (gates x0 W) slices_S128x6144_o0_4096_S128x2048))
      (tanh (mulf (logistic (extractStridedSlice S128x2048 ![0, 0] (gates x0 W) slices_S128x6144_o0_0_S128x2048))
        (tanh (extractStridedSlice S128x2048 ![0, 2048] (gates x0 W) slices_S128x6144_o0_2048_S128x2048)))))

/-- Each row's maximum (from −∞, and once more against −∞), kept as a column and spread back over the row. -/
def maxCol (z : FVec Ideal S128x2048 .f32) : FVec Ideal S128x2048 .f32 :=
  broadcastTo S128x2048 (shapeCast S128x1 (maximumf (broadcast S128 (Scalar.ofBits (F := Ideal) .f32 0xFF800000#32))
      (multiReduction .maximumf [1] S128 z 0xFF800000#32 reduces_S128x2048_S128 (.inl rfl) rfl)) shapeCasts_S128_S128x1)
    broadcasts_S128x1_S128x2048

/-- The exponentials of a block less its rows' maxima. -/
def expo (z : FVec Ideal S128x2048 .f32) : FVec Ideal S128x2048 .f32 := exp (subf z (maxCol z))

/-- Each row's sum, kept as a column and spread back over the row. -/
def sumCol (e : FVec Ideal S128x2048 .f32) : FVec Ideal S128x2048 .f32 :=
  broadcastTo S128x2048 (shapeCast S128x1 (multiReduction .add [1] S128 e 0x00000000#32 reduces_S128x2048_S128 (.inl rfl) rfl)
      shapeCasts_S128_S128x1) broadcasts_S128x1_S128x2048

/-- The row-wise softmax of a block, as the body spells it. -/
def normalize (z : FVec Ideal S128x2048 .f32) : FVec Ideal S128x2048 .f32 := divf (expo z) (sumCol (expo z))

/-- The body's payload is the softmax of the scaled hidden states. -/
theorem pay_eq (x0 : FVec Ideal S128x2048 .bf16) (W : FVec Ideal S2048x6144 .bf16) :
    k0_pay1 (F := Ideal) x0 W = normalize (scaled x0 W) := rfl

/-! ## The product and its column slices -/

/-- The block's product at (p, n): row p of the activations against column n of the weight. -/
theorem gates_apply (x0 : FVec Ideal S128x2048 .bf16) (W : FVec Ideal S2048x6144 .bf16) (p : Fin 128) (n : Fin 6144) :
    gates x0 W (ix2 p n) = ∑ k : Fin 2048, x0 (ix2 p k) * W (ix2 k n) := by
  unfold gates
  rw [shapeCast_self]
  exact Cert.Lib.ContractPlain.matmulZero_apply dot_S128x2048_S2048x6144_S128x6144_1_0_0_1_n_n rfl none x0 W p n

/-- A 2048-column slice of a [128, 6144] block starting at column `off` reads, at (p, j), column `off + j`. -/
theorem colSlice_apply {α : Type} (v : S128x6144.Idx → α) (off : ℕ) (hoff : off + 2048 ≤ 6144)
    (h : S128x6144.Slices ![0, off] S128x2048) (p : Fin 128) (j : Fin 2048) :
    extractStridedSlice S128x2048 ![0, off] v h (ix2 p j) = v (ix2 p ⟨off + j.val, by have := j.isLt; omega⟩) :=
  extractStridedSlice_apply ![0, off] v h (ix2 p j) (ix2 p ⟨off + j.val, by have := j.isLt; omega⟩) (fun a => match a with
    | ⟨0, _⟩ => by show p.val = 0 + p.val; omega
    | ⟨1, _⟩ => rfl)

/-- Column `n` of the weight as a row. -/
def wCol (W : FVec Ideal S2048x6144 .bf16) (n : Fin 6144) : Fin 2048 → EReal := fun k => W (ix2 k n)

/-- A gate's pre-activation at (p, j): row p of the activations against column `off + j` of the weight. -/
theorem gate_apply (x0 : FVec Ideal S128x2048 .bf16) (W : FVec Ideal S2048x6144 .bf16) (off : ℕ) (hoff : off + 2048 ≤ 6144)
    (h : S128x6144.Slices ![0, off] S128x2048) (p : Fin 128) (j : Fin 2048) :
    extractStridedSlice S128x2048 ![0, off] (gates x0 W) h (ix2 p j)
      = dotRow (fun k => x0 (ix2 p k)) (wCol W ⟨off + j.val, by have := j.isLt; omega⟩) :=
  (colSlice_apply (gates x0 W) off hoff h p j).trans (gates_apply x0 W p _)

/-- The scaled hidden state at (p, j): the logit of row p against the weight's columns j, 2048 + j, 4096 + j. -/
theorem scaled_apply (x0 : FVec Ideal S128x2048 .bf16) (W : FVec Ideal S2048x6144 .bf16) (p : Fin 128) (j : Fin 2048) :
    scaled x0 W (ix2 p j)
      = logit (dotRow (fun k => x0 (ix2 p k)) (wCol W ⟨0 + j.val, by have := j.isLt; omega⟩))
          (dotRow (fun k => x0 (ix2 p k)) (wCol W ⟨2048 + j.val, by have := j.isLt; omega⟩))
          (dotRow (fun k => x0 (ix2 p k)) (wCol W ⟨4096 + j.val, by have := j.isLt; omega⟩)) := by
  have e0 := gate_apply x0 W 0 (by omega) slices_S128x6144_o0_0_S128x2048 p j
  have e1 := gate_apply x0 W 2048 (by omega) slices_S128x6144_o0_2048_S128x2048 p j
  have e2 := gate_apply x0 W 4096 (by omega) slices_S128x6144_o0_4096_S128x2048 p j
  show sharp * (Ideal.logistic (extractStridedSlice S128x2048 ![0, 4096] (gates x0 W) slices_S128x6144_o0_4096_S128x2048 (ix2 p j))
      * Ideal.tanh (Ideal.logistic (extractStridedSlice S128x2048 ![0, 0] (gates x0 W) slices_S128x6144_o0_0_S128x2048 (ix2 p j))
        * Ideal.tanh (extractStridedSlice S128x2048 ![0, 2048] (gates x0 W) slices_S128x6144_o0_2048_S128x2048 (ix2 p j)))) = _
  rw [e0, e1, e2]
  rfl

/-! ## The softmax of a block, row by row -/

/-- The subtracted maximum at (p, k) is row p's. -/
theorem maxCol_apply (z : FVec Ideal S128x2048 .f32) (p : Fin 128) (k : Fin 2048) :
    maxCol z (ix2 p k) = rowMax (fun k' => z (ix2 p k')) :=
  (Cert.Keepdims.broadcastTo_a1_ab_apply _ broadcasts_S128x1_S128x2048 p k).trans
    ((Cert.Keepdims.shapeCast_a_a1_apply _ shapeCasts_S128_S128x1 p 0).trans
      (congrArg (max negInf)
        (Cert.BlockLayout.multiReduction_max_trailing2 z 0xFF800000#32 reduces_S128x2048_S128 (.inl rfl) rfl p)))

/-- The exponential at (p, k). -/
theorem expo_apply (z : FVec Ideal S128x2048 .f32) (p : Fin 128) (k : Fin 2048) :
    expo z (ix2 p k) = Ideal.exp (z (ix2 p k) - rowMax (fun k' => z (ix2 p k'))) := by
  show Ideal.exp (z (ix2 p k) - maxCol z (ix2 p k)) = _
  rw [maxCol_apply]

/-- The divisor at (p, j) is row p's sum. -/
theorem sumCol_apply (e : FVec Ideal S128x2048 .f32) (p : Fin 128) (j : Fin 2048) :
    sumCol e (ix2 p j) = ∑ k : Fin 2048, e (ix2 p k) :=
  (Cert.Keepdims.broadcastTo_a1_ab_apply _ broadcasts_S128x1_S128x2048 p j).trans
    ((Cert.Keepdims.shapeCast_a_a1_apply _ shapeCasts_S128_S128x1 p 0).trans
      (Cert.BlockLayout.multiReduction_add_trailing2 e 0x00000000#32 reduces_S128x2048_S128 (.inl rfl) rfl p))

/-- The body's softmax at (p, j) is the softmax of row p at j. -/
theorem normalize_apply (z : FVec Ideal S128x2048 .f32) (p : Fin 128) (j : Fin 2048) :
    normalize z (ix2 p j) = softmaxRow (fun k => z (ix2 p k)) j := by
  show Ideal.div (expo z (ix2 p j)) (sumCol (expo z) (ix2 p j)) = _
  rw [expo_apply, sumCol_apply]
  unfold softmaxRow
  exact congrArg (Ideal.div _) (Finset.sum_congr rfl fun k _ => expo_apply z p k)

/-- THE BLOCK: the payload at (p, j) is the softmax, at j, of the logits of row p of the activations against the
    weight's columns. -/
theorem pay_apply (x0 : FVec Ideal S128x2048 .bf16) (W : FVec Ideal S2048x6144 .bf16) (p : Fin 128) (j : Fin 2048) :
    k0_pay1 (F := Ideal) x0 W (ix2 p j)
      = softmaxRow (fun j' : Fin 2048 =>
          logit (dotRow (fun k => x0 (ix2 p k)) (wCol W ⟨0 + j'.val, by have := j'.isLt; omega⟩))
            (dotRow (fun k => x0 (ix2 p k)) (wCol W ⟨2048 + j'.val, by have := j'.isLt; omega⟩))
            (dotRow (fun k => x0 (ix2 p k)) (wCol W ⟨4096 + j'.val, by have := j'.isLt; omega⟩))) j := by
  rw [pay_eq, normalize_apply]
  exact congrArg (softmaxRow · j) (funext fun j' => scaled_apply x0 W p j')

end Cert.KernelIdeal.Block

end
-- ==== Proof.LibConcatThree.lean ====
/-
  Three arrays stacked along the leading axis: a concatenate of three operands, as a host operation and read at an
  index.

  A host operation on a literal family of three operands writes its function of the three operands' contents, each
  read AT ITS OWN REFERENCE (under the family's binder the reference `![a, b, c] k` is no literal, and no result
  lemma can go on reading the operands' own contents; the library states this form for four operands).

  Three [n, m] matrices stacked to [N, m] (N = 3n) read, at row r, the first at row r when r < n, the second at row
  r − n when n ≤ r < 2n, the third at row r − 2n beyond.
-/
import Idealize.ShloMosaic.Lib.StableHlo.Run
import Idealize.ShloMosaic.Lib.Pipeline.Value
import Idealize.ShloMosaic.Lib.ValueIdx

noncomputable section

namespace Cert.Lib.ConcatThree

open Idealize.ShloMosaic Idealize.ShloMosaic.ValueIdx Idealize.ShloMosaic.StableHlo

section Result

variable {τ : Topo} {sig : RefSig} {Val : EltTy → Type} {x a b y : Ref sig .tc}

/-- A three-operand host operation's result, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Result

section Read

variable {α : Type} {n m N : ℕ}

/-- Row `r = j` of the stack is row `j` of the first matrix. -/
theorem stack3_first (A B C : (⟨2, ![n, m]⟩ : Shape).Idx → α)
    (h : Shape.Concatenates [(⟨2, ![n, m]⟩ : Shape), ⟨2, ![n, m]⟩, ⟨2, ![n, m]⟩] ⟨2, ![N, m]⟩ 0)
    (j : Fin n) (e : Fin m) (r : Fin N) (hr : r.val = j.val) :
    concatenate ⟨2, ![N, m]⟩ 0 [⟨⟨2, ![n, m]⟩, A⟩, ⟨⟨2, ![n, m]⟩, B⟩, ⟨⟨2, ![n, m]⟩, C⟩] h (ix2 r e) = A (ix2 j e) :=
  concatenate_apply_piece (t := ⟨2, ![N, m]⟩) (0 : Fin 2) [⟨⟨2, ![n, m]⟩, A⟩, ⟨⟨2, ![n, m]⟩, B⟩, ⟨⟨2, ![n, m]⟩, C⟩] h (ix2 r e) 0 (by show 0 < 3; omega)
    ⟨2, ![n, m]⟩ A rfl rfl 0 rfl (ix2 j e)
    (fun b hb => match b, hb with | ⟨0, _⟩, hb => absurd rfl hb | ⟨1, _⟩, _ => rfl)
    (by show 0 + j.val = r.val; omega)

/-- Row `r = n + j` of the stack is row `j` of the second matrix. -/
theorem stack3_second (A B C : (⟨2, ![n, m]⟩ : Shape).Idx → α)
    (h : Shape.Concatenates [(⟨2, ![n, m]⟩ : Shape), ⟨2, ![n, m]⟩, ⟨2, ![n, m]⟩] ⟨2, ![N, m]⟩ 0)
    (j : Fin n) (e : Fin m) (r : Fin N) (hr : r.val = n + j.val) :
    concatenate ⟨2, ![N, m]⟩ 0 [⟨⟨2, ![n, m]⟩, A⟩, ⟨⟨2, ![n, m]⟩, B⟩, ⟨⟨2, ![n, m]⟩, C⟩] h (ix2 r e) = B (ix2 j e) :=
  concatenate_apply_piece (t := ⟨2, ![N, m]⟩) (0 : Fin 2) [⟨⟨2, ![n, m]⟩, A⟩, ⟨⟨2, ![n, m]⟩, B⟩, ⟨⟨2, ![n, m]⟩, C⟩] h (ix2 r e) 1 (by show 1 < 3; omega)
    ⟨2, ![n, m]⟩ B rfl rfl n (by simp) (ix2 j e)
    (fun b hb => match b, hb with | ⟨0, _⟩, hb => absurd rfl hb | ⟨1, _⟩, _ => rfl)
    (by show n + j.val = r.val; omega)

/-- Row `r = 2n + j` of the stack is row `j` of the third matrix. -/
theorem stack3_third (A B C : (⟨2, ![n, m]⟩ : Shape).Idx → α)
    (h : Shape.Concatenates [(⟨2, ![n, m]⟩ : Shape), ⟨2, ![n, m]⟩, ⟨2, ![n, m]⟩] ⟨2, ![N, m]⟩ 0)
    (j : Fin n) (e : Fin m) (r : Fin N) (hr : r.val = n + n + j.val) :
    concatenate ⟨2, ![N, m]⟩ 0 [⟨⟨2, ![n, m]⟩, A⟩, ⟨⟨2, ![n, m]⟩, B⟩, ⟨⟨2, ![n, m]⟩, C⟩] h (ix2 r e) = C (ix2 j e) :=
  concatenate_apply_piece (t := ⟨2, ![N, m]⟩) (0 : Fin 2) [⟨⟨2, ![n, m]⟩, A⟩, ⟨⟨2, ![n, m]⟩, B⟩, ⟨⟨2, ![n, m]⟩, C⟩] h (ix2 r e) 2 (by show 2 < 3; omega)
    ⟨2, ![n, m]⟩ C rfl rfl (n + n) (by simp) (ix2 j e)
    (fun b hb => match b, hb with | ⟨0, _⟩, hb => absurd rfl hb | ⟨1, _⟩, _ => rfl)
    (by show n + n + j.val = r.val; omega)

end Read

end Cert.Lib.ConcatThree

end
-- ==== Proof.KernelValue.lean ====
/-
  The kernel's result array, as one function of the arguments, at the exact values.

  The region finds the activations flattened to [16384, 2048] (row b · 2048 + t is row (b, t) of x) and the weight
  operand [2048, 6144] whose columns j, 2048 + j and 4096 + j (j < 2048) are rows j, 4096 + j and 6144 + j of
  the input weights (the row blocks of w starting at 0, 4096 and 6144 stacked, then transposed). Grid point
  t writes back rows [128 t, 128 t + 128) of the result, each the softmax of that row's logits; the 128 blocks
  tile the 16384 rows; the last host line re-lays the rows as [8, 2048, 2048]. So the program's result is
  `Cert.Lstm.probs` of x and w.
-/
import proofs.«124564_j8177617731970_1_alg».proof.Proof.IdealSide.Frame
import proofs.«124564_j8177617731970_1_alg».proof.Proof.BlockValue
import proofs.«124564_j8177617731970_1_alg».proof.Proof.LibConcatThree
import Idealize.ShloMosaic.Lib.ValueLayout
import Idealize.ShloMosaic.Lib.StableHlo.Run
import Idealize.ShloMosaic.PureOps.Ideal.Laws

set_option maxRecDepth 16384

noncomputable section

namespace Cert.KernelIdeal.Whole

open Cert.KernelIdeal Cert.KernelIdeal.Gen Cert.KernelIdeal.Frame Cert.KernelIdeal.Block Cert.Lstm
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The activations and the input weights as launched. -/
abbrev xArg (c : Dev nD) : S8x2048x2048.Idx → EReal := m ((c : Thread nD τ).loc main_arg0)
abbrev wArg (c : Dev nD) : S8192x2048.Idx → EReal := m ((c : Thread nD τ).loc main_arg1)
/-- The two operands of the region as it finds them: the flattened activations and the stacked, transposed weights. -/
abbrev actsOp (c : Dev nD) : FVec Ideal S16384x2048 .bf16 := V m c main_v7
abbrev weightOp (c : Dev nD) : FVec Ideal S2048x6144 .bf16 := V m c main_v5

/-! ## What the region finds in its two operands -/

/-- The activations' operand: x flattened to [16384, 2048] (narrowing is the identity at the exact values). -/
theorem acts_eq (c : Dev nD) :
    actsOp m c
      = truncf .bf16 (shapeCast S16384x2048 (xArg m c) shapeCasts_S8x2048x2048_S16384x2048) bitsLt_bf16_f32 := by
  show StableHlo.after hostOps0 (fun b => m (c, b)) (Proc.devRef .tc main_v7) = _
  after_results
  rfl

/-- Row b · 2048 + t of the activations' operand is row (b, t) of x. -/
theorem acts_apply (c : Dev nD) (b : Fin 8) (t k : Fin 2048) (r : Fin 16384) (hr : r.val = b.val * 2048 + t.val) :
    actsOp m c (ix2 r k) = xArg m c (ix3 b t k) :=
  (congrFun (acts_eq m c) (ix2 r k)).trans
    (shapeCast_apply (xArg m c) shapeCasts_S8x2048x2048_S16384x2048 (ix2 r k) (ix3 b t k) (by
      rw [Shape.rowMajor_val_three, Shape.rowMajor_val_two]
      show (b.val * 2048 + t.val) * 2048 + k.val = r.val * 2048 + k.val
      rw [hr]))

/-- The weight operand: rows 0, 4096 and 6144 onward of w (2048 each) stacked, transposed. -/
theorem weight_eq (c : Dev nD) :
    weightOp m c
      = truncf .bf16 (transpose S2048x6144 [1, 0] (concatenate S6144x2048 0
          [⟨S2048x2048, extractStridedSlice S2048x2048 ![0, 0] (wArg m c) slices_S8192x2048_S2048x2048_0_0⟩,
           ⟨S2048x2048, extractStridedSlice S2048x2048 ![4096, 0] (wArg m c) slices_S8192x2048_S2048x2048_4096_0⟩,
           ⟨S2048x2048, extractStridedSlice S2048x2048 ![6144, 0] (wArg m c) slices_S8192x2048_S2048x2048_6144_0⟩]
          concatenates_S2048x2048_S2048x2048_S2048x2048_S6144x2048_d0) transposes_S6144x2048_S2048x6144_1_0) bitsLt_bf16_f32 := by
  show StableHlo.after hostOps0 (fun b => m (c, b)) (Proc.devRef .tc main_v5) = _
  simp only [after_cons, after_nil]
  repeat (first
    | rw [Cert.Lib.ConcatThree.nary3_result] | rw [unary_result] | rw [reshape_result]
    | (rw [unary_result_ne]; rotate_left; decide) | (rw [reshape_result_ne]; rotate_left; decide)
    | (rw [nary_result_ne]; rotate_left; decide))
  rfl

/-- Column j of the weight operand (the input gate's block) is row j of w; -/
theorem weight_in (c : Dev nD) (k j : Fin 2048) (n : Fin 6144) (hn : n.val = 0 + j.val) (g : Fin 8192) (hg : g.val = 0 + j.val) :
    weightOp m c (ix2 k n) = wArg m c (ix2 g k) :=
  (congrFun (weight_eq m c) (ix2 k n)).trans
    ((transpose_ix2_apply _ transposes_S6144x2048_S2048x6144_1_0 k n).trans
      ((Cert.Lib.ConcatThree.stack3_first _ _ _ concatenates_S2048x2048_S2048x2048_S2048x2048_S6144x2048_d0 j k n (by omega)).trans
        (slice2_axis0_apply 0 (wArg m c) slices_S8192x2048_S2048x2048_0_0 j k g hg)))

/-- column 2048 + j (the cell gate's block) is row 4096 + j of w; -/
theorem weight_cell (c : Dev nD) (k j : Fin 2048) (n : Fin 6144) (hn : n.val = 2048 + j.val) (g : Fin 8192) (hg : g.val = 4096 + j.val) :
    weightOp m c (ix2 k n) = wArg m c (ix2 g k) :=
  (congrFun (weight_eq m c) (ix2 k n)).trans
    ((transpose_ix2_apply _ transposes_S6144x2048_S2048x6144_1_0 k n).trans
      ((Cert.Lib.ConcatThree.stack3_second _ _ _ concatenates_S2048x2048_S2048x2048_S2048x2048_S6144x2048_d0 j k n hn).trans
        (slice2_axis0_apply 4096 (wArg m c) slices_S8192x2048_S2048x2048_4096_0 j k g hg)))

/-- column 4096 + j (the output gate's block) is row 6144 + j of w. -/
theorem weight_out (c : Dev nD) (k j : Fin 2048) (n : Fin 6144) (hn : n.val = 4096 + j.val) (g : Fin 8192) (hg : g.val = 6144 + j.val) :
    weightOp m c (ix2 k n) = wArg m c (ix2 g k) :=
  (congrFun (weight_eq m c) (ix2 k n)).trans
    ((transpose_ix2_apply _ transposes_S6144x2048_S2048x6144_1_0 k n).trans
      ((Cert.Lib.ConcatThree.stack3_third _ _ _ concatenates_S2048x2048_S2048x2048_S2048x2048_S6144x2048_d0 j k n (by omega)).trans
        (slice2_axis0_apply 6144 (wArg m c) slices_S8192x2048_S2048x2048_6144_0 j k g hg)))

/-! ## The result array of the region, row by row -/

/-- The logits of row `xr` against the weight operand's columns. -/
def rowOf (W : FVec Ideal S2048x6144 .bf16) (xr : Fin 2048 → EReal) (j' : Fin 2048) : EReal :=
  logit (dotRow xr (wCol W ⟨0 + j'.val, by have := j'.isLt; omega⟩))
    (dotRow xr (wCol W ⟨2048 + j'.val, by have := j'.isLt; omega⟩))
    (dotRow xr (wCol W ⟨4096 + j'.val, by have := j'.isLt; omega⟩))

/-- The [16384, 2048] result: each row the softmax of its logits. -/
def flat (X : FVec Ideal S16384x2048 .bf16) (W : FVec Ideal S2048x6144 .bf16) : S16384x2048.Idx → EReal :=
  fun i => softmaxRow (rowOf W fun k => X (ix2 (i 0) k)) (i 1)

/-- The block's payload at (p, j), in the same words. -/
theorem pay_row (x0 : FVec Ideal S128x2048 .bf16) (W : FVec Ideal S2048x6144 .bf16) (p : Fin 128) (j : Fin 2048) :
    k0_pay1 (F := Ideal) x0 W (ix2 p j) = softmaxRow (rowOf W fun k => x0 (ix2 p k)) j := pay_apply x0 W p j

/-- The printed index maps, decided over the grid: both windows' block at point t is block t of the rows, the
    one block of the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row p of the activations' block at point t is row 128 t + p of the operand. -/
theorem in_block (c : Dev nD) (t : Fin cfg0.N) (p : Fin 128) (k : Fin 2048) (r : Fin 16384) (hr : r.val = t.val * 128 + p.val) :
    iblk m c 0 t (ix2 p k) = actsOp m c (ix2 r k) := by
  obtain ⟨e0, e1, -, -⟩ := idx_facts t
  show actsOp m c (((cfg0.win 0).blk t).view.emb (ix2 p k)) = _
  refine congrArg (actsOp m c) ?_
  funext a; apply Fin.ext
  match a with
  | ⟨0, _⟩ => show win0_0.index t (0 : Fin 2) * 128 + 1 * p.val = r.val; omega
  | ⟨1, _⟩ => show win0_0.index t (1 : Fin 2) * 2048 + 1 * k.val = k.val; omega

/-- WHAT POINT t WRITES BACK is block t of `flat` of the two operands as the region finds them. -/
theorem flushed_eq (c : Dev nD) (t : Fin cfg0.N) :
    (dats m 0 c).flushed 1 t = ((cfg0.win 1).blk t).view.read (Elt Ideal) (flat (V m c main_v7) (weightCopy m c)) := by
  show (cfg0.win 1).cut (grid0.coords t) ((dats m 0 c).after 1 t) = _
  rw [after_out]
  unfold outAt
  obtain ⟨-, -, e2, e3⟩ := idx_facts t
  have hN : t.val < 128 := lt_of_lt_of_eq t.isLt (show cfg0.N = 128 from N_0)
  funext y
  -- the block's coordinates, as coordinates of a 128 × 2048 block
  obtain ⟨p, q, hy⟩ : ∃ (p : Fin 128) (q : Fin 2048), y = ix2 p q := ⟨y 0, y 1, eq_ix2 y⟩
  have hp : p.val < 128 := p.isLt
  have hemb : ((cfg0.win 1).blk t).view.emb y = ix2 (⟨t.val * 128 + p.val, by omega⟩ : Fin 16384) q := by
    rw [hy]
    funext a; apply Fin.ext
    match a with
    | ⟨0, _⟩ => show win0_1.index t (0 : Fin 2) * 128 + 1 * p.val = t.val * 128 + p.val; omega
    | ⟨1, _⟩ => show win0_1.index t (1 : Fin 2) * 2048 + 1 * q.val = q.val; omega
  show k0_pay1 (F := Ideal) (iblk m c 0 t) (weightCopy m c) y
      = flat (V m c main_v7) (weightCopy m c) (((cfg0.win 1).blk t).view.emb y)
  rw [hemb]
  refine (congrArg (k0_pay1 (F := Ideal) (iblk m c 0 t) (weightCopy m c)) hy).trans ?_
  refine (pay_row (iblk m c 0 t) (weightCopy m c) p q).trans ?_
  show softmaxRow (rowOf (weightCopy m c) fun k => iblk m c 0 t (ix2 p k)) q
      = softmaxRow (rowOf (weightCopy m c) fun k => actsOp m c (ix2 (⟨t.val * 128 + p.val, by omega⟩ : Fin 16384) k)) q
  refine congrArg (fun xr => softmaxRow (rowOf (weightCopy m c) xr) q) ?_
  funext k
  exact in_block m c t p k _ rfl

/-- An index of the result array is in point t's block iff each coordinate is in the block's range on its axis. -/
theorem mem_blk (t : Fin cfg0.N) (i : S16384x2048.Idx) :
    i ∈ ((cfg0.win 1).blk t).view.set ↔ ∀ a : Fin 2, win0_1.index t a * S128x2048.size a ≤ (i a).val ∧ (i a).val < win0_1.index t a * S128x2048.size a + S128x2048.size a := by
  show i ∈ ((View.whole main_v8).slice (win0_1.rect t)).set ↔ _
  rw [View.set_slice_whole, Rect.mem_set_unit]
  exact Iff.rfl

/-- The blocks tile the rows: row r is in the block of point r / 128. -/
theorem covered (i : S16384x2048.Idx) : ∃ t : Fin cfg0.N, (cfg0.win 1).flush t = true ∧ i ∈ ((cfg0.win 1).blk t).view.set := by
  have hi0 : (i 0).val < 16384 := (i 0).isLt
  have hi1 : (i 1).val < 2048 := (i 1).isLt
  have hN : cfg0.N = 128 := N_0
  refine ⟨⟨(i 0).val / 128, by rw [hN]; omega⟩, flush0_1 _, ?_⟩
  obtain ⟨-, -, e2, e3⟩ := idx_facts ⟨(i 0).val / 128, by rw [hN]; omega⟩
  rw [mem_blk]
  intro a
  match a with
  | ⟨0, _⟩ =>
    show win0_1.index _ (0 : Fin 2) * 128 ≤ (i 0).val ∧ (i 0).val < win0_1.index _ (0 : Fin 2) * 128 + 128
    rw [e2]; show (i 0).val / 128 * 128 ≤ (i 0).val ∧ (i 0).val < (i 0).val / 128 * 128 + 128; omega
  | ⟨1, _⟩ =>
    show win0_1.index _ (1 : Fin 2) * 2048 ≤ (i 1).val ∧ (i 1).val < win0_1.index _ (1 : Fin 2) * 2048 + 2048
    rw [e3]; omega

/-- THE RESULT ARRAY of the region after the run. -/
theorem final (c : Dev nD) : (dats m 0 c).arrAt 1 cfg0.N = flat (V m c main_v7) (weightCopy m c) :=
  (dats m 0 c).arrAt_eq_of_cover 1 (flat (V m c main_v7) (weightCopy m c)) (fun t _ => flushed_eq m c t) covered

/-! ## The program's result -/

/-- The logits of a row of x against the weight operand are its logits against w. -/
theorem rowOf_eq (c : Dev nD) (xr : Fin 2048 → EReal) : rowOf (weightCopy m c) xr = rowLogits (wArg m c) xr := by
  funext j'
  have hj : j'.val < 2048 := j'.isLt
  unfold rowOf rowLogits
  have h0 : wCol (weightCopy m c) ⟨0 + j'.val, by omega⟩ = gateRow (wArg m c) 0 (by omega) j' :=
    funext fun k => weight_in m c k j' _ rfl _ rfl
  have h1 : wCol (weightCopy m c) ⟨2048 + j'.val, by omega⟩ = gateRow (wArg m c) 4096 (by omega) j' :=
    funext fun k => weight_cell m c k j' _ rfl _ rfl
  have h2 : wCol (weightCopy m c) ⟨4096 + j'.val, by omega⟩ = gateRow (wArg m c) 6144 (by omega) j' :=
    funext fun k => weight_out m c k j' _ rfl _ rfl
  rw [h0, h1, h2]

/-- The reshaped result after the last host line: `probs` of x and w. -/
theorem result_eq (c : Dev nD) :
    Pipeline.afterTail₀ cfgs (dats m) 0 (V0 m) [hostOps1] c main_v9 = probs (xArg m c) (wArg m c) := by
  have hnum : ∀ (b : Fin 8) (t j : Fin 2048), Pipeline.afterTail₀ cfgs (dats m) 0 (V0 m) [hostOps1] c main_v9 (ix3 b t j)
      = flat (V m c main_v7) (weightCopy m c) (ix2 (⟨b.val * 2048 + t.val, by have := b.isLt; have := t.isLt; omega⟩ : Fin 16384) j) := by
    intro b t j
    unfold Pipeline.afterTail₀
    show StableHlo.after hostOps1 _ (Proc.devRef .tc main_v9) (ix3 b t j) = _
    after_results
    rw [show Pipeline.withArrays spec0 c (V0 m c) (fun w => (dats m 0 c).arrAt w cfg0.N) (Proc.devRef .tc main_v8)
        = flat (V m c main_v7) (weightCopy m c) from
      (Pipeline.withArrays_arr spec0 launch0.win.arr_inj c _ _ 1).trans (final m c)]
    exact shapeCast_apply _ shapeCasts_S16384x2048_S8x2048x2048 (ix3 b t j) _ (by
      rw [Shape.rowMajor_val_three, Shape.rowMajor_val_two]; rfl)
  funext i
  obtain ⟨b, t, j, rfl⟩ : ∃ (b : Fin 8) (t j : Fin 2048), i = ix3 b t j := ⟨i 0, i 1, i 2, eq_ix3 i⟩
  rw [hnum b t j]
  show softmaxRow (rowOf (weightCopy m c) fun k => actsOp m c (ix2 (⟨b.val * 2048 + t.val, by have := b.isLt; have := t.isLt; omega⟩ : Fin 16384) k)) j
      = softmaxRow (rowLogits (wArg m c) fun k => xArg m c (ix3 b t k)) j
  rw [rowOf_eq]
  refine congrArg (fun xr => softmaxRow (rowLogits (wArg m c) xr) j) ?_
  funext k
  exact acts_apply m c b t k _ rfl

/-- THE KERNEL'S RUN, read: every weakly fair execution of @main terminates, the result holds `probs` of the
    activations and the input weights, and the arguments end unchanged. -/
theorem run : θ_run defs (onTc (τ := τ) (main (F := Ideal))) ⟨m, fun _ => 0, ρ⟩ fun r => ∀ c : Dev nD,
      r.2.mem ((c.tc : Thread nD τ).loc main_v9) = probs (xArg m c) (wArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (result_eq m c),
     ((h c).2 main_arg0 (Pipeline.mem_restRefs_of main_arg0 (by decide) (by decide))).trans (kept m c main_arg0 (by decide) (by decide) (by decide)),
     ((h c).2 main_arg1 (Pipeline.mem_restRefs_of main_arg1 (by decide) (by decide))).trans (kept m c main_arg1 (by decide) (by decide) (by decide)),
     ((h c).2 main_arg2 (Pipeline.mem_restRefs_of main_arg2 (by decide) (by decide))).trans (kept m c main_arg2 (by decide) (by decide) (by decide))⟩)
    (run_main m ρ)

end Cert.KernelIdeal.Whole

end
-- ==== Proof.RefValue.lean ====
/-
  The reference's result, as the same function of the arguments, at the exact values.

  The reference contracts x [8, 2048, 2048] with all 8192 rows of w, cuts the four 2048-column gate blocks out of the
  product, and applies the gating and the softmax on the host. Read one operation at a time: the product at
  (b, t, g) is the sum over k of x (b, t, k) · w (g, k); the input, cell and output gates are its columns j,
  4096 + j and 6144 + j; the host spells the sigmoid as 1 / (1 + e^(−u)), which is the logistic function; the
  row maximum is the fold of max from −∞ over the row, taken once more against −∞; and the row sum starts from the
  word of zero. So the result at (b, t, j) is `Cert.Lstm.probs` of x and w.
-/
import proofs.«124564_j8177617731970_1_alg».proof.Proof.Gen.ReferenceIdeal.Read
import proofs.«124564_j8177617731970_1_alg».proof.Proof.Spec
import Idealize.ShloMosaic.PureOps.Reduce

set_option maxRecDepth 16384

noncomputable section

namespace Cert.ReferenceIdeal.RefValue

open Cert.ReferenceIdeal Cert.ReferenceIdeal.Gen Cert.ReferenceIdeal.Read Cert.Lstm
open Idealize.ShloMosaic Idealize.ShloMosaic.ValueIdx

variable (x : (⟨S8x2048x2048, .f32⟩ : BufTy).Contents (Elt Ideal)) (w : (⟨S8192x2048, .f32⟩ : BufTy).Contents (Elt Ideal))

/-- The product at (b, t, g): row (b, t) of x against row g of w. -/
theorem product_apply (b : Fin 8) (t : Fin 2048) (g : Fin 8192) :
    val_main_v0 (F := Ideal) x w (ix3 b t g) = dotRow (fun k => x (ix3 b t k)) (wRow w g) := by
  rw [val_main_v0_apply]
  refine Finset.sum_congr rfl fun k _ => ?_
  have hl : lidx_main_v0 (ix3 b t g) k = ix3 b t k := funext fun a => Fin.ext (by
    match a with | ⟨0, _⟩ => rfl | ⟨1, _⟩ => rfl | ⟨2, _⟩ => rfl)
  have hr : ridx_main_v0 (ix3 b t g) k = ix2 g k := funext fun a => Fin.ext (by
    match a with | ⟨0, _⟩ => rfl | ⟨1, _⟩ => rfl)
  rw [hl, hr]
  rfl

/-- The input, cell and output gates at (b, t, j). -/
theorem gate_in (b : Fin 8) (t j : Fin 2048) :
    val_main_v1 (F := Ideal) x w (ix3 b t j) = dotRow (fun k => x (ix3 b t k)) (gateRow w 0 (by omega) j) := by
  rw [val_main_v1_apply]
  have hi : idx_main_v1 (ix3 b t j) = ix3 b t (⟨0 + j.val, by have := j.isLt; omega⟩ : Fin 8192) := funext fun a => Fin.ext (by
    match a with | ⟨0, _⟩ => rfl | ⟨1, _⟩ => rfl | ⟨2, _⟩ => show j.val = 0 + j.val; omega)
  rw [hi, product_apply]
  rfl

theorem gate_cell (b : Fin 8) (t j : Fin 2048) :
    val_main_v3 (F := Ideal) x w (ix3 b t j) = dotRow (fun k => x (ix3 b t k)) (gateRow w 4096 (by omega) j) := by
  rw [val_main_v3_apply]
  have hi : idx_main_v3 (ix3 b t j) = ix3 b t (⟨4096 + j.val, by have := j.isLt; omega⟩ : Fin 8192) := funext fun a => Fin.ext (by
    match a with | ⟨0, _⟩ => rfl | ⟨1, _⟩ => rfl | ⟨2, _⟩ => rfl)
  rw [hi, product_apply]
  rfl

theorem gate_out (b : Fin 8) (t j : Fin 2048) :
    val_main_v4 (F := Ideal) x w (ix3 b t j) = dotRow (fun k => x (ix3 b t k)) (gateRow w 6144 (by omega) j) := by
  rw [val_main_v4_apply]
  have hi : idx_main_v4 (ix3 b t j) = ix3 b t (⟨6144 + j.val, by have := j.isLt; omega⟩ : Fin 8192) := funext fun a => Fin.ext (by
    match a with | ⟨0, _⟩ => rfl | ⟨1, _⟩ => rfl | ⟨2, _⟩ => rfl)
  rw [hi, product_apply]
  rfl

/-- The host's sigmoid, spelt with the word of one, is the logistic function. -/
theorem sigmoid_eq (u : EReal) :
    Ideal.div (Ideal.ofBits .f32 0x3F800000#32) (Ideal.ofBits .f32 0x3F800000#32 + Ideal.exp (-u)) = Ideal.logistic u := by
  rw [one_word]; rfl

/-- The scaled hidden state at (b, t, j): the logit of row (b, t). -/
theorem scaled_apply (b : Fin 8) (t j : Fin 2048) :
    val_main_v22 (F := Ideal) x w (ix3 b t j) = rowLogits w (fun k => x (ix3 b t k)) j := by
  rw [val_main_v22_apply, val_main_v21_apply, val_main_cst_3_apply, val_main_v20_apply, val_main_v18_apply, val_main_v19_apply,
    val_main_v17_apply, val_main_cst_2_apply, val_main_v16_apply, val_main_v15_apply, val_main_cst_1_apply, val_main_v14_apply,
    val_main_v13_apply, val_main_v12_apply, val_main_v10_apply, val_main_v11_apply, val_main_v9_apply, val_main_cst_0_apply,
    val_main_v8_apply, val_main_v7_apply, val_main_cst_apply, val_main_v6_apply, val_main_v5_apply,
    gate_in, gate_cell, gate_out]
  simp only [Ideal.mulf_def, Ideal.hostDivf_def, Ideal.addf_def, Ideal.hostUnary_exp_def, Ideal.hostUnary_tanh_def,
    Ideal.hostNegf_def, Ideal.negf_def, Ideal.ofBits_def, sigmoid_eq]
  rfl

/-- From −∞ the host's reduce with a maximum body over the trailing axis of [8, 2048, 2048], at (b, t), is the fold of
    max over that row. -/
theorem hostRowMax_apply (z : FVec Ideal S8x2048x2048 .f32) (b : Fin 8) (t : Fin 2048) :
    Host.reduce FloatOps.maximumf z (constant (F := Ideal) S_ .f32 0xFF800000#32) reducesTo_S8x2048x2048_S8x2048_d2 h_S_ (ix2 b t)
      = (Finset.univ : Finset (Fin 2048)).fold max negInf (fun j => z (ix3 b t j)) := by
  have hR : S8x2048x2048.Reduces [2] S8x2048 := by decide
  rw [Host.reduce_eq_fold_single FloatOps.maximumf z _ reducesTo_S8x2048x2048_S8x2048_d2 hR h_S_]
  have hf : (z ∘ hR.lift (ix2 b t)) = fun j : Fin 2048 => z (ix3 b t j) := funext fun j => congrArg z (funext fun a => Fin.ext (by
    match a with | ⟨0, _⟩ => rfl | ⟨1, _⟩ => rfl | ⟨2, _⟩ => rfl))
  exact congrArg (fun f => Finset.fold max negInf f (Finset.univ : Finset (Fin 2048))) hf

/-- The row's maximum at (b, t). -/
theorem rowMax_apply (b : Fin 8) (t : Fin 2048) :
    val_main_v25 (F := Ideal) x w (ix2 b t) = rowMax (fun j => rowLogits w (fun k => x (ix3 b t k)) j) := by
  rw [val_main_v25_apply, val_main_v24_apply, val_main_cst_5_apply, Ideal.maximumf_def, Ideal.ofBits_def]
  unfold val_main_v23 val_main_cst_4 rowMax
  refine congrArg (max negInf) ((hostRowMax_apply (val_main_v22 (F := Ideal) x w) b t).trans ?_)
  exact congrArg (fun f => Finset.fold max negInf f (Finset.univ : Finset (Fin 2048)))
    (funext fun j => scaled_apply x w b t j)

/-- The exponential at (b, t, j). -/
theorem expo_apply (b : Fin 8) (t j : Fin 2048) :
    val_main_v29 (F := Ideal) x w (ix3 b t j)
      = Ideal.exp (rowLogits w (fun k => x (ix3 b t k)) j - rowMax (fun j' => rowLogits w (fun k => x (ix3 b t k)) j')) := by
  rw [val_main_v29_apply, val_main_v28_apply, val_main_v27_apply, val_main_v26_apply]
  have hi : idx_main_v26 (idx_main_v27 (ix3 b t j)) = ix2 b t := funext fun a => Fin.ext (by
    match a with | ⟨0, _⟩ => rfl | ⟨1, _⟩ => rfl)
  rw [hi, rowMax_apply, scaled_apply]
  rfl

/-- THE REFERENCE'S RESULT at (b, t, j). -/
theorem result_apply (b : Fin 8) (t j : Fin 2048) :
    val_main_v33 (F := Ideal) x w (ix3 b t j) = softmaxRow (rowLogits w fun k => x (ix3 b t k)) j := by
  rw [val_main_v33_apply, val_main_v32_apply, val_main_v31_apply]
  have hi : idx_main_v31 (idx_main_v32 (ix3 b t j)) = ix2 b t := funext fun a => Fin.ext (by
    match a with | ⟨0, _⟩ => rfl | ⟨1, _⟩ => rfl)
  rw [hi, val_main_v30_apply, val_main_cst_6_apply, expo_apply]
  unfold softmaxRow
  show Ideal.div _ (Ideal.ofBits .f32 0x00000000#32 + _) = _
  rw [Ideal.ofBits_zero_f32, zero_add]
  refine congrArg (Ideal.div _) (Finset.sum_congr rfl fun k _ => ?_)
  have hk : idx_main_v30 (ix2 b t) k = ix3 b t k := funext fun a => Fin.ext (by
    match a with | ⟨0, _⟩ => rfl | ⟨1, _⟩ => rfl | ⟨2, _⟩ => rfl)
  rw [hk, expo_apply]

/-- The reference's result is `probs` of x and w. -/
theorem result_eq : val_main_v33 (F := Ideal) x w = probs x w := by
  funext i
  have hi : i = ix3 (i 0) (i 1) (i 2) := eq_ix3 i
  calc val_main_v33 (F := Ideal) x w i
      = val_main_v33 (F := Ideal) x w (ix3 (i 0) (i 1) (i 2)) := congrArg (val_main_v33 (F := Ideal) x w) hi
    _ = softmaxRow (rowLogits w fun k => x (ix3 (i 0) (i 1) k)) (i 2) := result_apply x w (i 0) (i 1) (i 2)
    _ = probs x w i := rfl

end Cert.ReferenceIdeal.RefValue

end
-- ==== Proof.lean ====
/-
  An LSTM decode step entered with zero state at every position, followed by a softmax: a Pallas kernel against
  its jnp reference, equal on the extended reals.

  With h₀ = c₀ = 0 the recurrent weights and the forget gate never contribute, and row (b, t) of the result is
  the softmax over j of 20 · σ(o_j) · tanh(σ(i_j) · tanh(g_j)), where i, g and o are the products of row (b, t) of
  the activations with the input, cell and output row blocks of the input weights (`Cert.Lstm.probs`,
  Proof/Spec.lean).

  The kernel flattens the activations to [16384, 2048] and walks a 2 × 64 grid of 128-row blocks; it stacks and
  transposes the three row blocks of the weights it needs into one [2048, 6144] operand left in HBM, which the
  body copies into a scratch buffer at the first block of each half of the grid and finds there at every other
  block; each block is one product [128, 2048] × [2048, 6144], the gating, and a row softmax. Its frame (it
  terminates, faults nowhere, leaves its arguments unchanged) is proved once for any float instance, with the
  scratch's contents tracked from block to block (Proof/IdealSide, and word for word at the bit-exact instance
  Proof/BitsSide); its value is read off that run block by block (Proof/BlockValue.lean, Proof/KernelValue.lean).
  The reference contracts the activations with all four row blocks and cuts the gates out of the product; its
  run and its operations read at an index are the generated modules', joined to the same function in
  Proof/RefValue.lean. The two sums are over the same products term by term, the host's sigmoid
  1 / (1 + e^(−u)) is the logistic function, and the two softmaxes are spelt alike: no finiteness of the inputs
  is used. The idealization rewrote nothing, so `preserves` has nothing to say.
-/
import proofs.«124564_j8177617731970_1_alg».proof.Defs
import proofs.«124564_j8177617731970_1_alg».proof.Proof.Gen.Kernel
import proofs.«124564_j8177617731970_1_alg».proof.Proof.Gen.KernelIdeal
import proofs.«124564_j8177617731970_1_alg».proof.Proof.Gen.ReferenceIdeal
import proofs.«124564_j8177617731970_1_alg».proof.Proof.Gen.Pre_finite_inputs
import proofs.«124564_j8177617731970_1_alg».proof.Proof.Gen.ReferenceIdeal.Run
import proofs.«124564_j8177617731970_1_alg».proof.Proof.Gen.ReferenceIdeal.Read
import proofs.«124564_j8177617731970_1_alg».proof.Proof.BitsSide.Frame
import proofs.«124564_j8177617731970_1_alg».proof.Proof.IdealSide.Frame
import proofs.«124564_j8177617731970_1_alg».proof.Proof.KernelValue
import proofs.«124564_j8177617731970_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and keeps its arguments. -/
theorem frame_kernel : Cert.frame_Kernel := fun m ρ _ => Cert.Kernel.Frame.frame m ρ

/-- So does its idealization. -/
theorem frame_kernelIdeal : Cert.frame_KernelIdeal := fun m ρ _ => Cert.KernelIdeal.Frame.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with `Cert.Lstm.probs` of the activations and the
    input weights in their result, the arguments unchanged. -/
theorem algebraic : Cert.algebraic_KernelIdeal_ReferenceIdeal := by
  intro m ρ m' ρ' _ hagree
  refine ⟨fun c => Cert.Lstm.probs (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v33_eq, Cert.ReferenceIdeal.RefValue.result_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
